-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144 : Shape := ⟨1, ![262144]⟩
abbrev S100000x64 : Shape := ⟨2, ![100000, 64]⟩
abbrev S200000 : Shape := ⟨1, ![200000]⟩
abbrev S1 : Shape := ⟨1, ![1]⟩
abbrev S128x128 : Shape := ⟨2, ![128, 128]⟩
abbrev S128x200 : Shape := ⟨2, ![128, 200]⟩
abbrev S200 : Shape := ⟨1, ![200]⟩
abbrev S200x256 : Shape := ⟨2, ![200, 256]⟩
abbrev S256 : Shape := ⟨1, ![256]⟩
abbrev S256x200 : Shape := ⟨2, ![256, 200]⟩
abbrev S200x128 : Shape := ⟨2, ![200, 128]⟩
abbrev S128 : Shape := ⟨1, ![128]⟩
abbrev S128x1 : Shape := ⟨2, ![128, 1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S200000 : S_.BroadcastsInDim S200000 (![] : Fin 0 → Fin S200000.rank)
  reducesTo_S200000_S_d0 : S200000.ReducesTo [0] S_
  bcast_S_S1 : S_.BroadcastsInDim S1 (![] : Fin 0 → Fin S1.rank)
  reducesTo_S1_S_d0 : S1.ReducesTo [0] S_
  bcast_S_S128x128 : S_.BroadcastsInDim S128x128 (![] : Fin 0 → Fin S128x128.rank)
  reducesTo_S128x128_S_d0_1 : S128x128.ReducesTo [0, 1] S_
  bcast_S_S128x200 : S_.BroadcastsInDim S128x200 (![] : Fin 0 → Fin S128x200.rank)
  reducesTo_S128x200_S_d0_1 : S128x200.ReducesTo [0, 1] S_
  bcast_S_S200 : S_.BroadcastsInDim S200 (![] : Fin 0 → Fin S200.rank)
  reducesTo_S200_S_d0 : S200.ReducesTo [0] S_
  bcast_S_S200x256 : S_.BroadcastsInDim S200x256 (![] : Fin 0 → Fin S200x256.rank)
  reducesTo_S200x256_S_d0_1 : S200x256.ReducesTo [0, 1] S_
  bcast_S_S256 : S_.BroadcastsInDim S256 (![] : Fin 0 → Fin S256.rank)
  reducesTo_S256_S_d0 : S256.ReducesTo [0] S_
  bcast_S_S256x200 : S_.BroadcastsInDim S256x200 (![] : Fin 0 → Fin S256x200.rank)
  reducesTo_S256x200_S_d0_1 : S256x200.ReducesTo [0, 1] S_
  bcast_S_S200x128 : S_.BroadcastsInDim S200x128 (![] : Fin 0 → Fin S200x128.rank)
  reducesTo_S200x128_S_d0_1 : S200x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_

variable [Facts]

def fn_part4 {F : FTy → Type} [FloatOps F] (main_arg16 : FVec F S1 .f32) (main_v63 : IVec S_ 1) (main_v67 : IVec S_ 1) : IVec S_ 1 :=
  let main_v68 : IVec S_ 1 := andi main_v63 main_v67
  let main_v69 : FVec F S1 .f32 := Host.absf main_arg16
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg13 : FVec F S200x128 .f32) (main_arg14 : FVec F S128 .f32) (main_arg15 : FVec F S128x1 .f32) (main_arg16 : FVec F S1 .f32) (main_v48 : IVec S_ 1) (main_v49 : FVec F S200 .f32) (main_v50 : FVec F S200 .f32) : IVec S_ 1 :=
  let main_v51 : IVec S200 1 := cmpf .olt main_v49 main_v50
  let main_c_19 : IVec S_ 1 := constantI S_ 1 1#1
  let main_v52 : IVec S_ 1 := (fun x v => Host.reduce IntOp.andi x v reducesTo_S200_S_d0 h_S_) main_v51 main_c_19
  let main_v53 : IVec S_ 1 := andi main_v48 main_v52
  let main_v54 : FVec F S200x128 .f32 := Host.absf main_arg13
  let main_cst_20 : FVec F S_ .f32 := constant S_ .f32 0x7F800000#32
  let main_v55 : FVec F S200x128 .f32 := broadcastInDim S200x128 ![] bcast_S_S200x128 main_cst_20
  let main_v56 : IVec S200x128 1 := cmpf .olt main_v54 main_v55
  let main_c_21 : IVec S_ 1 := constantI S_ 1 1#1
  let main_v57 : IVec S_ 1 := (fun x v => Host.reduce IntOp.andi x v reducesTo_S200x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x1 .f32 := Host.absf main_arg15
  let main_cst_24 : FVec F S_ .f32 := constant S_ .f32 0x7F800000#32
  let main_v65 : FVec F S128x1 .f32 := broadcastInDim S128x1 ![] bcast_S_S128x1 main_cst_24
  let main_v66 : IVec S128x1 1 := cmpf .olt main_v64 main_v65
  let main_c_25 : IVec S_ 1 := constantI S_ 1 1#1
  let main_v67 : IVec S_ 1 := (fun x v => Host.reduce IntOp.andi x v reducesTo_S128x1_S_d0_1 h_S_) main_v66 main_c_25
  fn_part4 (F := F) main_arg16 main_v63 main_v67

def fn_part2 {F : FTy → Type} [FloatOps F] (main_arg9 : FVec F S200x256 .f32) (main_arg10 : FVec F S256 .f32) (main_arg11 : FVec F S256x200 .f32) (main_arg12 : FVec F S200 .f32) (main_arg13 : FVec F S200x128 .f32) (main_arg14 : FVec F S128 .f32) (main_arg15 : FVec F S128x1 .f32) (main_arg16 : FVec F S1 .f32) (main_v33 : IVec S_ 1) : IVec S_ 1 :=
  let main_v34 : FVec F S200x256 .f32 := Host.absf main_arg9
  let main_cst_12 : FVec F S_ .f32 := constant S_ .f32 0x7F800000#32
  let main_v35 : FVec F S200x256 .f32 := broadcastInDim S200x256 ![] bcast_S_S200x256 main_cst_12
  let main_v36 : IVec S200x256 1 := cmpf .olt main_v34 main_v35
  let main_c_13 : IVec S_ 1 := constantI S_ 1 1#1
  let main_v37 : IVec S_ 1 := (fun x v => Host.reduce IntOp.andi x v reducesTo_S200x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x200 .f32 := Host.absf main_arg11
  let main_cst_16 : FVec F S_ .f32 := constant S_ .f32 0x7F800000#32
  let main_v45 : FVec F S256x200 .f32 := broadcastInDim S256x200 ![] bcast_S_S256x200 main_cst_16
  let main_v46 : IVec S256x200 1 := cmpf .olt main_v44 main_v45
  let main_c_17 : IVec S_ 1 := constantI S_ 1 1#1
  let main_v47 : IVec S_ 1 := (fun x v => Host.reduce IntOp.andi x v reducesTo_S256x200_S_d0_1 h_S_) main_v46 main_c_17
  let main_v48 : IVec S_ 1 := andi main_v43 main_v47
  let main_v49 : FVec F S200 .f32 := Host.absf main_arg12
  let main_cst_18 : FVec F S_ .f32 := constant S_ .f32 0x7F800000#32
  let main_v50 : FVec F S200 .f32 := broadcastInDim S200 ![] bcast_S_S200 main_cst_18
  fn_part3 (F := F) main_arg13 main_arg14 main_arg15 main_arg16 main_v48 main_v49 main_v50

def fn_part1 {F : FTy → Type} [FloatOps F] (main_arg6 : FVec F S128x128 .f32) (main_arg7 : FVec F S128x200 .f32) (main_arg8 : FVec F S200 .f32) (main_arg9 : FVec F S200x256 .f32) (main_arg10 : FVec F S256 .f32) (main_arg11 : FVec F S256x200 .f32) (main_arg12 : FVec F S200 .f32) (main_arg13 : FVec F S200x128 .f32) (main_arg14 : FVec F S128 .f32) (main_arg15 : FVec F S128x1 .f32) (main_arg16 : FVec F S1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x200 .f32 := Host.absf main_arg7
  let main_cst_8 : FVec F S_ .f32 := constant S_ .f32 0x7F800000#32
  let main_v25 : FVec F S128x200 .f32 := broadcastInDim S128x200 ![] bcast_S_S128x200 main_cst_8
  let main_v26 : IVec S128x200 1 := cmpf .olt main_v24 main_v25
  let main_c_9 : IVec S_ 1 := constantI S_ 1 1#1
  let main_v27 : IVec S_ 1 := (fun x v => Host.reduce IntOp.andi x v reducesTo_S128x200_S_d0_1 h_S_) main_v26 main_c_9
  let main_v28 : IVec S_ 1 := andi main_v23 main_v27
  let main_v29 : FVec F S200 .f32 := Host.absf main_arg8
  let main_cst_10 : FVec F S_ .f32 := constant S_ .f32 0x7F800000#32
  let main_v30 : FVec F S200 .f32 := broadcastInDim S200 ![] bcast_S_S200 main_cst_10
  let main_v31 : IVec S200 1 := cmpf .olt main_v29 main_v30
  let main_c_11 : IVec S_ 1 := constantI S_ 1 1#1
  let main_v32 : IVec S_ 1 := (fun x v => Host.reduce IntOp.andi x v reducesTo_S200_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : IVec S262144 32) (main_arg1 : IVec S262144 32) (main_arg2 : FVec F S100000x64 .f32) (main_arg3 : FVec F S100000x64 .f32) (main_arg4 : FVec F S200000 .f32) (main_arg5 : FVec F S1 .f32) (main_arg6 : FVec F S128x128 .f32) (main_arg7 : FVec F S128x200 .f32) (main_arg8 : FVec F S200 .f32) (main_arg9 : FVec F S200x256 .f32) (main_arg10 : FVec F S256 .f32) (main_arg11 : FVec F S256x200 .f32) (main_arg12 : FVec F S200 .f32) (main_arg13 : FVec F S200x128 .f32) (main_arg14 : FVec F S128 .f32) (main_arg15 : FVec F S128x1 .f32) (main_arg16 : FVec F S1 .f32) : IVec S_ 1 :=
  let main_v0 : FVec F S100000x64 .f32 := Host.absf main_arg2
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg3
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S200000 .f32 := Host.absf main_arg4
  let main_cst_2 : FVec F S_ .f32 := constant S_ .f32 0x7F800000#32
  let main_v10 : FVec F S200000 .f32 := broadcastInDim S200000 ![] bcast_S_S200000 main_cst_2
  let main_v11 : IVec S200000 1 := cmpf .olt main_v9 main_v10
  let main_c_3 : IVec S_ 1 := constantI S_ 1 1#1
  let main_v12 : IVec S_ 1 := (fun x v => Host.reduce IntOp.andi x v reducesTo_S200000_S_d0 h_S_) main_v11 main_c_3
  let main_v13 : IVec S_ 1 := andi main_v8 main_v12
  let main_v14 : FVec F S1 .f32 := Host.absf main_arg5
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S262144 : Shape := ⟨1, ![262144]⟩
abbrev S100000x64 : Shape := ⟨2, ![100000, 64]⟩
abbrev S200000 : Shape := ⟨1, ![200000]⟩
abbrev S1 : Shape := ⟨1, ![1]⟩
abbrev S128x128 : Shape := ⟨2, ![128, 128]⟩
abbrev S128x200 : Shape := ⟨2, ![128, 200]⟩
abbrev S200 : Shape := ⟨1, ![200]⟩
abbrev S200x256 : Shape := ⟨2, ![200, 256]⟩
abbrev S256 : Shape := ⟨1, ![256]⟩
abbrev S256x200 : Shape := ⟨2, ![256, 200]⟩
abbrev S200x128 : Shape := ⟨2, ![200, 128]⟩
abbrev S128 : Shape := ⟨1, ![128]⟩
abbrev S128x1 : Shape := ⟨2, ![128, 1]⟩
abbrev S_ : Shape := ⟨0, ![]⟩
abbrev S262144x1 : Shape := ⟨2, ![262144, 1]⟩
abbrev S262144x64 : Shape := ⟨2, ![262144, 64]⟩
abbrev S262144x128 : Shape := ⟨2, ![262144, 128]⟩
abbrev S1x200 : Shape := ⟨2, ![1, 200]⟩
abbrev S1x256 : Shape := ⟨2, ![1, 256]⟩
abbrev S1x128 : Shape := ⟨2, ![1, 128]⟩
abbrev S1x1 : Shape := ⟨2, ![1, 1]⟩
abbrev S4096x128 : Shape := ⟨2, ![4096, 128]⟩
abbrev S4096x1 : Shape := ⟨2, ![4096, 1]⟩
abbrev S4096 : Shape := ⟨1, ![4096]⟩
abbrev S4096x200 : Shape := ⟨2, ![4096, 200]⟩
abbrev S4096x256 : Shape := ⟨2, ![4096, 256]⟩

abbrev nBuf : Space → Nat
  | .hbm => 77
  | .vmem => 18
  | .smem => 0
  | _ => 0

abbrev bufTy : (tb : Table) → Fin (tcTables nBuf tb) → BufTy
  | .hbm, ⟨0, _⟩ => ⟨S262144, .i32⟩
  | .hbm, ⟨1, _⟩ => ⟨S262144, .i32⟩
  | .hbm, ⟨2, _⟩ => ⟨S100000x64, .f32⟩
  | .hbm, ⟨3, _⟩ => ⟨S100000x64, .f32⟩
  | .hbm, ⟨4, _⟩ => ⟨S200000, .f32⟩
  | .hbm, ⟨5, _⟩ => ⟨S1, .f32⟩
  | .hbm, ⟨6, _⟩ => ⟨S128x128, .f32⟩
  | .hbm, ⟨7, _⟩ => ⟨S128x200, .f32⟩
  | .hbm, ⟨8, _⟩ => ⟨S200, .f32⟩
  | .hbm, ⟨9, _⟩ => ⟨S200x256, .f32⟩
  | .hbm, ⟨10, _⟩ => ⟨S256, .f32⟩
  | .hbm, ⟨11, _⟩ => ⟨S256x200, .f32⟩
  | .hbm, ⟨12, _⟩ => ⟨S200, .f32⟩
  | .hbm, ⟨13, _⟩ => ⟨S200x128, .f32⟩
  | .hbm, ⟨14, _⟩ => ⟨S128, .f32⟩
  | .hbm, ⟨15, _⟩ => ⟨S128x1, .f32⟩
  | .hbm, ⟨16, _⟩ => ⟨S1, .f32⟩
  | .hbm, ⟨17, _⟩ => ⟨S100000x64, .bf16⟩
  | .hbm, ⟨18, _⟩ => ⟨S100000x64, .bf16⟩
  | .hbm, ⟨19, _⟩ => ⟨S_, .i32⟩
  | .hbm, ⟨20, _⟩ => ⟨S262144, .i32⟩
  | .hbm, ⟨21, _⟩ => ⟨S262144, .i1⟩
  | .hbm, ⟨22, _⟩ => ⟨S_, .i32⟩
  | .hbm, ⟨23, _⟩ => ⟨S262144, .i32⟩
  | .hbm, ⟨24, _⟩ => ⟨S262144, .i32⟩
  | .hbm, ⟨25, _⟩ => ⟨S262144, .i32⟩
  | .hbm, ⟨26, _⟩ => ⟨S262144x1, .i32⟩
  | .hbm, ⟨27, _⟩ => ⟨S262144x64, .bf16⟩
  | .hbm, ⟨28, _⟩ => ⟨S_, .i32⟩
  | .hbm, ⟨29, _⟩ => ⟨S262144, .i32⟩
  | .hbm, ⟨30, _⟩ => ⟨S262144, .i1⟩
  | .hbm, ⟨31, _⟩ => ⟨S_, .i32⟩
  | .hbm, ⟨32, _⟩ => ⟨S262144, .i32⟩
  | .hbm, ⟨33, _⟩ => ⟨S262144, .i32⟩
  | .hbm, ⟨34, _⟩ => ⟨S262144, .i32⟩
  | .hbm, ⟨35, _⟩ => ⟨S262144x1, .i32⟩
  | .hbm, ⟨36, _⟩ => ⟨S262144x64, .bf16⟩
  | .hbm, ⟨37, _⟩ => ⟨S262144x128, .bf16⟩
  | .hbm, ⟨38, _⟩ => ⟨S_, .i32⟩
  | .hbm, ⟨39, _⟩ => ⟨S262144, .i32⟩
  | .hbm, ⟨40, _⟩ => ⟨S262144, .i1⟩
  | .hbm, ⟨41, _⟩ => ⟨S_, .i32⟩
  | .hbm, ⟨42, _⟩ => ⟨S262144, .i32⟩
  | .hbm, ⟨43, _⟩ => ⟨S262144, .i32⟩
  | .hbm, ⟨44, _⟩ => ⟨S262144, .i32⟩
  | .hbm, ⟨45, _⟩ => ⟨S262144x1, .i32⟩
  | .hbm, ⟨46, _⟩ => ⟨S262144, .f32⟩
  | .hbm, ⟨47, _⟩ => ⟨S_, .i32⟩
  | .hbm, ⟨48, _⟩ => ⟨S262144, .i32⟩
  | .hbm, ⟨49, _⟩ => ⟨S262144, .i32⟩
  | .hbm, ⟨50, _⟩ => ⟨S_, .i32⟩
  | .hbm, ⟨51, _⟩ => ⟨S262144, .i32⟩
  | .hbm, ⟨52, _⟩ => ⟨S262144, .i1⟩
  | .hbm, ⟨53, _⟩ => ⟨S_, .i32⟩
  | .hbm, ⟨54, _⟩ => ⟨S262144, .i32⟩
  | .hbm, ⟨55, _⟩ => ⟨S262144, .i32⟩
  | .hbm, ⟨56, _⟩ => ⟨S262144, .i32⟩
  | .hbm, ⟨57, _⟩ => ⟨S262144x1, .i32⟩
  | .hbm, ⟨58, _⟩ => ⟨S262144, .f32⟩
  | .hbm, ⟨59, _⟩ => ⟨S262144, .f32⟩
  | .hbm, ⟨60, _⟩ => ⟨S262144, .f32⟩
  | .hbm, ⟨61, _⟩ => ⟨S262144, .f32⟩
  | .hbm, ⟨62, _⟩ => ⟨S262144x1, .f32⟩
  | .hbm, ⟨63, _⟩ => ⟨S128x128, .f32⟩
  | .hbm, ⟨64, _⟩ => ⟨S128x128, .bf16⟩
  | .hbm, ⟨65, _⟩ => ⟨S128x128, .bf16⟩
  | .hbm, ⟨66, _⟩ => ⟨S128x200, .bf16⟩
  | .hbm, ⟨67, _⟩ => ⟨S200x256, .bf16⟩
  | .hbm, ⟨68, _⟩ => ⟨S256x200, .bf16⟩
  | .hbm, ⟨69, _⟩ => ⟨S200x128, .bf16⟩
  | .hbm, ⟨70, _⟩ => ⟨S128x1, .bf16⟩
  | .hbm, ⟨71, _⟩ => ⟨S1x200, .f32⟩
  | .hbm, ⟨72, _⟩ => ⟨S1x256, .f32⟩
  | .hbm, ⟨73, _⟩ => ⟨S1x200, .f32⟩
  | .hbm, ⟨74, _⟩ => ⟨S1x128, .f32⟩
  | .hbm, ⟨75, _⟩ => ⟨S1x1, .f32⟩
  | .hbm, ⟨76, _⟩ => ⟨S262144x1, .f32⟩
  | .local _ .vmem, ⟨0, _⟩ => ⟨S4096x128, .bf16⟩
  | .local _ .vmem, ⟨1, _⟩ => ⟨S4096x128, .bf16⟩
  | .local _ .vmem, ⟨2, _⟩ => ⟨S4096x1, .f32⟩
  | .local _ .vmem, ⟨3, _⟩ => ⟨S4096x1, .f32⟩
  | .local _ .vmem, ⟨4, _⟩ => ⟨S128x128, .bf16⟩
  | .local _ .vmem, ⟨5, _⟩ => ⟨S128x128, .bf16⟩
  | .local _ .vmem, ⟨6, _⟩ => ⟨S128x200, .bf16⟩
  | .local _ .vmem, ⟨7, _⟩ => ⟨S1x200, .f32⟩
  | .local _ .vmem, ⟨8, _⟩ => ⟨S200x256, .bf16⟩
  | .local _ .vmem, ⟨9, _⟩ => ⟨S1x256, .f32⟩
  | .local _ .vmem, ⟨10, _⟩ => ⟨S256x200, .bf16⟩
  | .local _ .vmem, ⟨11, _⟩ => ⟨S1x200, .f32⟩
  | .local _ .vmem, ⟨12, _⟩ => ⟨S200x128, .bf16⟩
  | .local _ .vmem, ⟨13, _⟩ => ⟨S1x128, .f32⟩
  | .local _ .vmem, ⟨14, _⟩ => ⟨S128x1, .bf16⟩
  | .local _ .vmem, ⟨15, _⟩ => ⟨S1x1, .f32⟩
  | .local _ .vmem, ⟨16, _⟩ => ⟨S4096x1, .f32⟩
  | .local _ .vmem, ⟨17, _⟩ => ⟨S4096x1, .f32⟩
  | _, _ => ⟨S262144, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_c_1 : Ref sig .tc := ⟨.hbm, 28, rfl⟩
abbrev main_v9 : Ref sig .tc := ⟨.hbm, 29, rfl⟩
abbrev main_v10 : Ref sig .tc := ⟨.hbm, 30, rfl⟩
abbrev main_c_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_c_6 : Ref sig .tc := ⟨.hbm, 50, rfl⟩
abbrev main_v26 : Ref sig .tc := ⟨.hbm, 51, rfl⟩
abbrev main_v27 : Ref sig .tc := ⟨.hbm, 52, rfl⟩
abbrev main_c_7 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x200 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x200 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S200x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x200 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x200 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S200x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S4096x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  bitsLt_bf16_f32 : FTy.bits .bf16 < FTy.bits .f32
  bcast_S_S262144 : S_.BroadcastsInDim S262144 (![] : Fin 0 → Fin S262144.rank)
  bcast_S262144_S262144x1_0 : S262144.BroadcastsInDim S262144x1 (![0] : Fin 1 → Fin S262144x1.rank)
  concatenates_S262144x64_S262144x64_S262144x128_d1 : Shape.Concatenates [S262144x64, S262144x64] S262144x128 1
  bcast_S1_S262144_0 : S1.BroadcastsInDim S262144 (![0] : Fin 1 → Fin S262144.rank)
  shapeCasts_S200_S1x200 : S200.ShapeCasts S1x200
  shapeCasts_S256_S1x256 : S256.ShapeCasts S1x256
  shapeCasts_S128_S1x128 : S128.ShapeCasts S1x128
  shapeCasts_S1_S1x1 : S1.ShapeCasts S1x1
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S4096x128_S4096 : S4096x128.Reduces [1] S4096
  shapeCasts_S4096_S4096x1 : S4096.ShapeCasts S4096x1
  inb_S128x200_S128x200_0_0 : ∀ a, (![0, 0] : Fin 2 → Nat) a + S128x200.size a ≤ S128x200.size a
  h_S128x200 : 0 < S128x200.numel
  shapeCasts_S128x200_S128x200 : S128x200.ShapeCasts S128x200
  inb_S1x200_S1x200_0_0 : ∀ a, (![0, 0] : Fin 2 → Nat) a + S1x200.size a ≤ S1x200.size a
  h_S1x200 : 0 < S1x200.numel
  shapeCasts_S1x200_S1x200 : S1x200.ShapeCasts S1x200
  broadcasts_S1x200_S4096x200 : S1x200.Broadcasts S4096x200
  inb_S200x256_S200x256_0_0 : ∀ a, (![0, 0] : Fin 2 → Nat) a + S200x256.size a ≤ S200x256.size a
  h_S200x256 : 0 < S200x256.numel
  shapeCasts_S200x256_S200x256 : S200x256.ShapeCasts S200x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S256x200_S256x200_0_0 : ∀ a, (![0, 0] : Fin 2 → Nat) a + S256x200.size a ≤ S256x200.size a
  h_S256x200 : 0 < S256x200.numel
  shapeCasts_S256x200_S256x200 : S256x200.ShapeCasts S256x200
  inb_S200x128_S200x128_0_0 : ∀ a, (![0, 0] : Fin 2 → Nat) a + S200x128.size a ≤ S200x128.size a
  h_S200x128 : 0 < S200x128.numel
  shapeCasts_S200x128_S200x128 : S200x128.ShapeCasts S200x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  gather_S100000x64_S262144x1_S262144x64_1_0_n_n_0_1_164_wf : GatherDims.WF S100000x64 S262144x1 S262144x64 [1] [0] [] [0] [] 1 ![1, 64]
  gather_S200000_S262144x1_S262144_n_0_n_n_0_1_1_wf : GatherDims.WF S200000 S262144x1 S262144 [] [0] [] [0] [] 1 ![1]
  dot_S4096x128_S128x128_S4096x128_1_0_0_1_n_n_wf : DotDims.WF S4096x128 S128x128 S4096x128 [1] [0] [0] [1] [] []
  dot_S4096x128_S128x200_S4096x200_1_0_0_1_n_n_wf : DotDims.WF S4096x128 S128x200 S4096x200 [1] [0] [0] [1] [] []
  dot_S4096x200_S200x256_S4096x256_1_0_0_1_n_n_wf : DotDims.WF S4096x200 S200x256 S4096x256 [1] [0] [0] [1] [] []
  dot_S4096x256_S256x200_S4096x200_1_0_0_1_n_n_wf : DotDims.WF S4096x256 S256x200 S4096x200 [1] [0] [0] [1] [] []
  dot_S4096x200_S200x128_S4096x128_1_0_0_1_n_n_wf : DotDims.WF S4096x200 S200x128 S4096x128 [1] [0] [0] [1] [] []
  dot_S4096x128_S128x1_S4096x1_1_0_0_1_n_n_wf : DotDims.WF S4096x128 S128x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .bf16 = 32 ∨ (Rect.block (s := S262144x128) S4096x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S262144x1.size a
  hwx0_1 : ∀ i : grid0.Coords, EltTy.bits .f32 = 32 ∨ (Rect.block (s := S262144x1) S4096x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x200.size a ≤ S128x200.size a
  hwx0_4 : ∀ i : grid0.Coords, EltTy.bits .bf16 = 32 ∨ (Rect.block (s := S128x200) S128x200.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x200.size a ≤ S1x200.size a
  hwx0_5 : ∀ i : grid0.Coords, EltTy.bits .f32 = 32 ∨ (Rect.block (s := S1x200) S1x200.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S200x256.size a ≤ S200x256.size a
  hwx0_6 : ∀ i : grid0.Coords, EltTy.bits .bf16 = 32 ∨ (Rect.block (s := S200x256) S200x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x200.size a ≤ S256x200.size a
  hwx0_8 : ∀ i : grid0.Coords, EltTy.bits .bf16 = 32 ∨ (Rect.block (s := S256x200) S256x200.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x200.size a ≤ S1x200.size a
  hwx0_9 : ∀ i : grid0.Coords, EltTy.bits .f32 = 32 ∨ (Rect.block (s := S1x200) S1x200.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S200x128.size a ≤ S200x128.size a
  hwx0_10 : ∀ i : grid0.Coords, EltTy.bits .bf16 = 32 ∨ (Rect.block (s := S200x128) S200x128.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x1.size a ≤ S128x1.size a
  hwx0_12 : ∀ i : grid0.Coords, EltTy.bits .bf16 = 32 ∨ (Rect.block (s := S128x1) S128x1.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1.size a ≤ S1x1.size a
  hwx0_13 : ∀ i : grid0.Coords, EltTy.bits .f32 = 32 ∨ (Rect.block (s := S1x1) S1x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S4096x1.size a ≤ S262144x1.size a
  hwx0_14 : ∀ i : grid0.Coords, EltTy.bits .f32 = 32 ∨ (Rect.block (s := S262144x1) S4096x1.size (cc0_transform_14 i) (hinb0_14 i)).WholeWords (EltTy.packing .f32)

variable [Facts₀]

def gather_S100000x64_S262144x1_S262144x64_1_0_n_n_0_1_164 : GatherDims S100000x64 S262144x1 S262144x64 where
  offsetDims := [1]
  collapsedSliceDims := [0]
  operandBatchingDims := []
  startIndicesBatchingDims := []
  startIndexMap := [0]
  indexVectorDim := 1
  sliceSizes := ![1, 64]
  wf := gather_S100000x64_S262144x1_S262144x64_1_0_n_n_0_1_164_wf
def gather_S200000_S262144x1_S262144_n_0_n_n_0_1_1 : GatherDims S200000 S262144x1 S262144 where
  offsetDims := []
  collapsedSliceDims := [0]
  operandBatchingDims := []
  startIndicesBatchingDims := []
  startIndexMap := [0]
  indexVectorDim := 1
  sliceSizes := ![1]
  wf := gather_S200000_S262144x1_S262144_n_0_n_n_0_1_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x200_S4096x200_1_0_0_1_n_n : DotDims S4096x128 S128x200 S4096x200 where
  lhsContracting := [1]
  rhsContracting := [0]
  lhsNonContracting := [0]
  rhsNonContracting := [1]
  lhsBatch := []
  rhsBatch := []
  wf := dot_S4096x128_S128x200_S4096x200_1_0_0_1_n_n_wf
def dot_S4096x200_S200x256_S4096x256_1_0_0_1_n_n : DotDims S4096x200 S200x256 S4096x256 where
  lhsContracting := [1]
  rhsContracting := [0]
  lhsNonContracting := [0]
  rhsNonContracting := [1]
  lhsBatch := []
  rhsBatch := []
  wf := dot_S4096x200_S200x256_S4096x256_1_0_0_1_n_n_wf
def dot_S4096x256_S256x200_S4096x200_1_0_0_1_n_n : DotDims S4096x256 S256x200 S4096x200 where
  lhsContracting := [1]
  rhsContracting := [0]
  lhsNonContracting := [0]
  rhsNonContracting := [1]
  lhsBatch := []
  rhsBatch := []
  wf := dot_S4096x256_S256x200_S4096x200_1_0_0_1_n_n_wf
def dot_S4096x200_S200x128_S4096x128_1_0_0_1_n_n : DotDims S4096x200 S200x128 S4096x128 where
  lhsContracting := [1]
  rhsContracting := [0]
  lhsNonContracting := [0]
  rhsNonContracting := [1]
  lhsBatch := []
  rhsBatch := []
  wf := dot_S4096x200_S200x128_S4096x128_1_0_0_1_n_n_wf
def dot_S4096x128_S128x1_S4096x1_1_0_0_1_n_n : DotDims S4096x128 S128x1 S4096x1 where
  lhsContracting := [1]
  rhsContracting := [0]
  lhsNonContracting := [0]
  rhsNonContracting := [1]
  lhsBatch := []
  rhsBatch := []
  wf := dot_S4096x128_S128x1_S4096x1_1_0_0_1_n_n_wf

abbrev win0_0 : Pipeline.Window sig grid0 :=
  Pipeline.Window.ofSpec (Memref.whole main_v16) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v38) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v39) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v40) S128x200.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v45) S1x200.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v41) S200x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v46) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v42) S256x200.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v47) S1x200.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v43) S200x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v48) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v44) S128x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v49) S1x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v50) S4096x1.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S262144 : Shape := ⟨1, ![262144]⟩
abbrev S100000x64 : Shape := ⟨2, ![100000, 64]⟩
abbrev S200000 : Shape := ⟨1, ![200000]⟩
abbrev S1 : Shape := ⟨1, ![1]⟩
abbrev S128x128 : Shape := ⟨2, ![128, 128]⟩
abbrev S128x200 : Shape := ⟨2, ![128, 200]⟩
abbrev S200 : Shape := ⟨1, ![200]⟩
abbrev S200x256 : Shape := ⟨2, ![200, 256]⟩
abbrev S256 : Shape := ⟨1, ![256]⟩
abbrev S256x200 : Shape := ⟨2, ![256, 200]⟩
abbrev S200x128 : Shape := ⟨2, ![200, 128]⟩
abbrev S128 : Shape := ⟨1, ![128]⟩
abbrev S128x1 : Shape := ⟨2, ![128, 1]⟩
abbrev S_ : Shape := ⟨0, ![]⟩
abbrev S262144x1 : Shape := ⟨2, ![262144, 1]⟩
abbrev S262144x64 : Shape := ⟨2, ![262144, 64]⟩
abbrev S262144x128 : Shape := ⟨2, ![262144, 128]⟩
abbrev S262144x200 : Shape := ⟨2, ![262144, 200]⟩
abbrev S1x200 : Shape := ⟨2, ![1, 200]⟩
abbrev S262144x256 : Shape := ⟨2, ![262144, 256]⟩
abbrev S1x256 : Shape := ⟨2, ![1, 256]⟩
abbrev S1x128 : Shape := ⟨2, ![1, 128]⟩
abbrev S1x1 : Shape := ⟨2, ![1, 1]⟩

abbrev nBuf : Space → Nat
  | .hbm => 118
  | .vmem => 0
  | .smem => 0
  | _ => 0

abbrev bufTy : (tb : Table) → Fin (tcTables nBuf tb) → BufTy
  | .hbm, ⟨0, _⟩ => ⟨S262144, .i32⟩
  | .hbm, ⟨1, _⟩ => ⟨S262144, .i32⟩
  | .hbm, ⟨2, _⟩ => ⟨S100000x64, .f32⟩
  | .hbm, ⟨3, _⟩ => ⟨S100000x64, .f32⟩
  | .hbm, ⟨4, _⟩ => ⟨S200000, .f32⟩
  | .hbm, ⟨5, _⟩ => ⟨S1, .f32⟩
  | .hbm, ⟨6, _⟩ => ⟨S128x128, .f32⟩
  | .hbm, ⟨7, _⟩ => ⟨S128x200, .f32⟩
  | .hbm, ⟨8, _⟩ => ⟨S200, .f32⟩
  | .hbm, ⟨9, _⟩ => ⟨S200x256, .f32⟩
  | .hbm, ⟨10, _⟩ => ⟨S256, .f32⟩
  | .hbm, ⟨11, _⟩ => ⟨S256x200, .f32⟩
  | .hbm, ⟨12, _⟩ => ⟨S200, .f32⟩
  | .hbm, ⟨13, _⟩ => ⟨S200x128, .f32⟩
  | .hbm, ⟨14, _⟩ => ⟨S128, .f32⟩
  | .hbm, ⟨15, _⟩ => ⟨S128x1, .f32⟩
  | .hbm, ⟨16, _⟩ => ⟨S1, .f32⟩
  | .hbm, ⟨17, _⟩ => ⟨S_, .i32⟩
  | .hbm, ⟨18, _⟩ => ⟨S262144, .i32⟩
  | .hbm, ⟨19, _⟩ => ⟨S262144, .i1⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S262144, .i32⟩
  | .hbm, ⟨24, _⟩ => ⟨S262144x1, .i32⟩
  | .hbm, ⟨25, _⟩ => ⟨S262144x64, .f32⟩
  | .hbm, ⟨26, _⟩ => ⟨S_, .i32⟩
  | .hbm, ⟨27, _⟩ => ⟨S262144, .i32⟩
  | .hbm, ⟨28, _⟩ => ⟨S262144, .i1⟩
  | .hbm, ⟨29, _⟩ => ⟨S_, .i32⟩
  | .hbm, ⟨30, _⟩ => ⟨S262144, .i32⟩
  | .hbm, ⟨31, _⟩ => ⟨S262144, .i32⟩
  | .hbm, ⟨32, _⟩ => ⟨S262144, .i32⟩
  | .hbm, ⟨33, _⟩ => ⟨S262144x1, .i32⟩
  | .hbm, ⟨34, _⟩ => ⟨S262144x64, .f32⟩
  | .hbm, ⟨35, _⟩ => ⟨S262144x128, .f32⟩
  | .hbm, ⟨36, _⟩ => ⟨S_, .i32⟩
  | .hbm, ⟨37, _⟩ => ⟨S262144, .i32⟩
  | .hbm, ⟨38, _⟩ => ⟨S262144, .i1⟩
  | .hbm, ⟨39, _⟩ => ⟨S_, .i32⟩
  | .hbm, ⟨40, _⟩ => ⟨S262144, .i32⟩
  | .hbm, ⟨41, _⟩ => ⟨S262144, .i32⟩
  | .hbm, ⟨42, _⟩ => ⟨S262144, .i32⟩
  | .hbm, ⟨43, _⟩ => ⟨S262144x1, .i32⟩
  | .hbm, ⟨44, _⟩ => ⟨S262144, .f32⟩
  | .hbm, ⟨45, _⟩ => ⟨S_, .i32⟩
  | .hbm, ⟨46, _⟩ => ⟨S262144, .i32⟩
  | .hbm, ⟨47, _⟩ => ⟨S262144, .i32⟩
  | .hbm, ⟨48, _⟩ => ⟨S_, .i32⟩
  | .hbm, ⟨49, _⟩ => ⟨S262144, .i32⟩
  | .hbm, ⟨50, _⟩ => ⟨S262144, .i1⟩
  | .hbm, ⟨51, _⟩ => ⟨S_, .i32⟩
  | .hbm, ⟨52, _⟩ => ⟨S262144, .i32⟩
  | .hbm, ⟨53, _⟩ => ⟨S262144, .i32⟩
  | .hbm, ⟨54, _⟩ => ⟨S262144, .i32⟩
  | .hbm, ⟨55, _⟩ => ⟨S262144x1, .i32⟩
  | .hbm, ⟨56, _⟩ => ⟨S262144, .f32⟩
  | .hbm, ⟨57, _⟩ => ⟨S262144, .f32⟩
  | .hbm, ⟨58, _⟩ => ⟨S262144, .f32⟩
  | .hbm, ⟨59, _⟩ => ⟨S262144, .f32⟩
  | .hbm, ⟨60, _⟩ => ⟨S262144x1, .f32⟩
  | .hbm, ⟨61, _⟩ => ⟨S262144x128, .f32⟩
  | .hbm, ⟨62, _⟩ => ⟨S262144x128, .f32⟩
  | .hbm, ⟨63, _⟩ => ⟨S128x128, .f32⟩
  | .hbm, ⟨64, _⟩ => ⟨S262144x128, .f32⟩
  | .hbm, ⟨65, _⟩ => ⟨S262144x128, .f32⟩
  | .hbm, ⟨66, _⟩ => ⟨S262144x128, .f32⟩
  | .hbm, ⟨67, _⟩ => ⟨S_, .f32⟩
  | .hbm, ⟨68, _⟩ => ⟨S262144, .f32⟩
  | .hbm, ⟨69, _⟩ => ⟨S262144x1, .f32⟩
  | .hbm, ⟨70, _⟩ => ⟨S_, .f32⟩
  | .hbm, ⟨71, _⟩ => ⟨S262144x1, .f32⟩
  | .hbm, ⟨72, _⟩ => ⟨S262144x1, .f32⟩
  | .hbm, ⟨73, _⟩ => ⟨S_, .f32⟩
  | .hbm, ⟨74, _⟩ => ⟨S262144x1, .f32⟩
  | .hbm, ⟨75, _⟩ => ⟨S262144x1, .f32⟩
  | .hbm, ⟨76, _⟩ => ⟨S262144x200, .f32⟩
  | .hbm, ⟨77, _⟩ => ⟨S1x200, .f32⟩
  | .hbm, ⟨78, _⟩ => ⟨S262144x200, .f32⟩
  | .hbm, ⟨79, _⟩ => ⟨S262144x200, .f32⟩
  | .hbm, ⟨80, _⟩ => ⟨S_, .f32⟩
  | .hbm, ⟨81, _⟩ => ⟨S262144x200, .f32⟩
  | .hbm, ⟨82, _⟩ => ⟨S262144x200, .f32⟩
  | .hbm, ⟨83, _⟩ => ⟨S262144x256, .f32⟩
  | .hbm, ⟨84, _⟩ => ⟨S1x256, .f32⟩
  | .hbm, ⟨85, _⟩ => ⟨S262144x256, .f32⟩
  | .hbm, ⟨86, _⟩ => ⟨S262144x256, .f32⟩
  | .hbm, ⟨87, _⟩ => ⟨S_, .f32⟩
  | .hbm, ⟨88, _⟩ => ⟨S262144x256, .f32⟩
  | .hbm, ⟨89, _⟩ => ⟨S262144x256, .f32⟩
  | .hbm, ⟨90, _⟩ => ⟨S262144x200, .f32⟩
  | .hbm, ⟨91, _⟩ => ⟨S1x200, .f32⟩
  | .hbm, ⟨92, _⟩ => ⟨S262144x200, .f32⟩
  | .hbm, ⟨93, _⟩ => ⟨S262144x200, .f32⟩
  | .hbm, ⟨94, _⟩ => ⟨S_, .f32⟩
  | .hbm, ⟨95, _⟩ => ⟨S262144x200, .f32⟩
  | .hbm, ⟨96, _⟩ => ⟨S262144x200, .f32⟩
  | .hbm, ⟨97, _⟩ => ⟨S262144x128, .f32⟩
  | .hbm, ⟨98, _⟩ => ⟨S1x128, .f32⟩
  | .hbm, ⟨99, _⟩ => ⟨S262144x128, .f32⟩
  | .hbm, ⟨100, _⟩ => ⟨S262144x128, .f32⟩
  | .hbm, ⟨101, _⟩ => ⟨S_, .f32⟩
  | .hbm, ⟨102, _⟩ => ⟨S262144x128, .f32⟩
  | .hbm, ⟨103, _⟩ => ⟨S262144x128, .f32⟩
  | .hbm, ⟨104, _⟩ => ⟨S262144x1, .f32⟩
  | .hbm, ⟨105, _⟩ => ⟨S1x1, .f32⟩
  | .hbm, ⟨106, _⟩ => ⟨S262144x1, .f32⟩
  | .hbm, ⟨107, _⟩ => ⟨S262144x1, .f32⟩
  | .hbm, ⟨108, _⟩ => ⟨S262144x1, .f32⟩
  | .hbm, ⟨109, _⟩ => ⟨S262144x1, .f32⟩
  | .hbm, ⟨110, _⟩ => ⟨S262144x1, .f32⟩
  | .hbm, ⟨111, _⟩ => ⟨S262144x1, .f32⟩
  | .hbm, ⟨112, _⟩ => ⟨S_, .f32⟩
  | .hbm, ⟨113, _⟩ => ⟨S262144x1, .f32⟩
  | .hbm, ⟨114, _⟩ => ⟨S262144x1, .f32⟩
  | .hbm, ⟨115, _⟩ => ⟨S_, .f32⟩
  | .hbm, ⟨116, _⟩ => ⟨S262144x1, .f32⟩
  | .hbm, ⟨117, _⟩ => ⟨S262144x1, .f32⟩
  | _, _ => ⟨S262144, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_1 : Ref sig .tc := ⟨.hbm, 26, rfl⟩
abbrev main_v7 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_c_3 : Ref sig .tc := ⟨.hbm, 36, rfl⟩
abbrev main_v15 : Ref sig .tc := ⟨.hbm, 37, rfl⟩
abbrev main_v16 : Ref sig .tc := ⟨.hbm, 38, rfl⟩
abbrev main_c_4 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_5 : Ref sig .tc := ⟨.hbm, 45, rfl⟩
abbrev main_v22 : Ref sig .tc := ⟨.hbm, 46, rfl⟩
abbrev main_v23 : Ref sig .tc := ⟨.hbm, 47, rfl⟩
abbrev main_c_6 : Ref sig .tc := ⟨.hbm, 48, rfl⟩
abbrev main_v24 : Ref sig .tc := ⟨.hbm, 49, rfl⟩
abbrev main_v25 : Ref sig .tc := ⟨.hbm, 50, rfl⟩
abbrev main_c_7 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst : Ref sig .tc := ⟨.hbm, 67, rfl⟩
abbrev main_v41 : Ref sig .tc := ⟨.hbm, 68, rfl⟩
abbrev main_v42 : Ref sig .tc := ⟨.hbm, 69, rfl⟩
abbrev main_cst_8 : Ref sig .tc := ⟨.hbm, 70, rfl⟩
abbrev main_v43 : Ref sig .tc := ⟨.hbm, 71, rfl⟩
abbrev main_v44 : Ref sig .tc := ⟨.hbm, 72, rfl⟩
abbrev main_cst_9 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_call0_cst : Ref sig .tc := ⟨.hbm, 80, rfl⟩
abbrev main_call0_v0 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_call1_cst : Ref sig .tc := ⟨.hbm, 87, rfl⟩
abbrev main_call1_v0 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_call2_cst : Ref sig .tc := ⟨.hbm, 94, rfl⟩
abbrev main_call2_v0 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_call3_cst : Ref sig .tc := ⟨.hbm, 101, rfl⟩
abbrev main_call3_v0 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_10 : Ref sig .tc := ⟨.hbm, 112, rfl⟩
abbrev main_v75 : Ref sig .tc := ⟨.hbm, 113, rfl⟩
abbrev main_v76 : Ref sig .tc := ⟨.hbm, 114, rfl⟩
abbrev main_cst_11 : Ref sig .tc := ⟨.hbm, 115, rfl⟩
abbrev main_v77 : Ref sig .tc := ⟨.hbm, 116, rfl⟩
abbrev main_v78 : Ref sig .tc := ⟨.hbm, 117, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  concatenates_S262144x64_S262144x64_S262144x128_d1 : Shape.Concatenates [S262144x64, S262144x64] S262144x128 1
  bcast_S1_S262144_0 : S1.BroadcastsInDim S262144 (![0] : Fin 1 → Fin S262144.rank)
  reducesTo_S262144x128_S262144_d1 : S262144x128.ReducesTo [1] S262144
  h_S_ : 0 < S_.numel
  bcast_S_S262144x1 : S_.BroadcastsInDim S262144x1 (![] : Fin 0 → Fin S262144x1.rank)
  bcast_S200_S1x200_1 : S200.BroadcastsInDim S1x200 (![1] : Fin 1 → Fin S1x200.rank)
  bcast_S1x200_S262144x200_0_1 : S1x200.BroadcastsInDim S262144x200 (![0, 1] : Fin 2 → Fin S262144x200.rank)
  bcast_S_S262144x200 : S_.BroadcastsInDim S262144x200 (![] : Fin 0 → Fin S262144x200.rank)
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  gather_S100000x64_S262144x1_S262144x64_1_0_n_n_0_1_164_wf : GatherDims.WF S100000x64 S262144x1 S262144x64 [1] [0] [] [0] [] 1 ![1, 64]
  gather_S200000_S262144x1_S262144_n_0_n_n_0_1_1_wf : GatherDims.WF S200000 S262144x1 S262144 [] [0] [] [0] [] 1 ![1]
  dot_S262144x128_S128x128_S262144x128_1_0_0_1_n_n_wf : DotDims.WF S262144x128 S128x128 S262144x128 [1] [0] [0] [1] [] []
  dot_S262144x128_S128x200_S262144x200_1_0_0_1_n_n_wf : DotDims.WF S262144x128 S128x200 S262144x200 [1] [0] [0] [1] [] []
  dot_S262144x200_S200x256_S262144x256_1_0_0_1_n_n_wf : DotDims.WF S262144x200 S200x256 S262144x256 [1] [0] [0] [1] [] []
  dot_S262144x256_S256x200_S262144x200_1_0_0_1_n_n_wf : DotDims.WF S262144x256 S256x200 S262144x200 [1] [0] [0] [1] [] []
  dot_S262144x200_S200x128_S262144x128_1_0_0_1_n_n_wf : DotDims.WF S262144x200 S200x128 S262144x128 [1] [0] [0] [1] [] []
  dot_S262144x128_S128x1_S262144x1_1_0_0_1_n_n_wf : DotDims.WF S262144x128 S128x1 S262144x1 [1] [0] [0] [1] [] []

variable [Facts₀]

def gather_S100000x64_S262144x1_S262144x64_1_0_n_n_0_1_164 : GatherDims S100000x64 S262144x1 S262144x64 where
  offsetDims := [1]
  collapsedSliceDims := [0]
  operandBatchingDims := []
  startIndicesBatchingDims := []
  startIndexMap := [0]
  indexVectorDim := 1
  sliceSizes := ![1, 64]
  wf := gather_S100000x64_S262144x1_S262144x64_1_0_n_n_0_1_164_wf
def gather_S200000_S262144x1_S262144_n_0_n_n_0_1_1 : GatherDims S200000 S262144x1 S262144 where
  offsetDims := []
  collapsedSliceDims := [0]
  operandBatchingDims := []
  startIndicesBatchingDims := []
  startIndexMap := [0]
  indexVectorDim := 1
  sliceSizes := ![1]
  wf := gather_S200000_S262144x1_S262144_n_0_n_n_0_1_1_wf
def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf
def dot_S262144x128_S128x200_S262144x200_1_0_0_1_n_n : DotDims S262144x128 S128x200 S262144x200 where
  lhsContracting := [1]
  rhsContracting := [0]
  lhsNonContracting := [0]
  rhsNonContracting := [1]
  lhsBatch := []
  rhsBatch := []
  wf := dot_S262144x128_S128x200_S262144x200_1_0_0_1_n_n_wf
def dot_S262144x200_S200x256_S262144x256_1_0_0_1_n_n : DotDims S262144x200 S200x256 S262144x256 where
  lhsContracting := [1]
  rhsContracting := [0]
  lhsNonContracting := [0]
  rhsNonContracting := [1]
  lhsBatch := []
  rhsBatch := []
  wf := dot_S262144x200_S200x256_S262144x256_1_0_0_1_n_n_wf
def dot_S262144x256_S256x200_S262144x200_1_0_0_1_n_n : DotDims S262144x256 S256x200 S262144x200 where
  lhsContracting := [1]
  rhsContracting := [0]
  lhsNonContracting := [0]
  rhsNonContracting := [1]
  lhsBatch := []
  rhsBatch := []
  wf := dot_S262144x256_S256x200_S262144x200_1_0_0_1_n_n_wf
def dot_S262144x200_S200x128_S262144x128_1_0_0_1_n_n : DotDims S262144x200 S200x128 S262144x128 where
  lhsContracting := [1]
  rhsContracting := [0]
  lhsNonContracting := [0]
  rhsNonContracting := [1]
  lhsBatch := []
  rhsBatch := []
  wf := dot_S262144x200_S200x128_S262144x128_1_0_0_1_n_n_wf
def dot_S262144x128_S128x1_S262144x1_1_0_0_1_n_n : DotDims S262144x128 S128x1 S262144x1 where
  lhsContracting := [1]
  rhsContracting := [0]
  lhsNonContracting := [0]
  rhsNonContracting := [1]
  lhsBatch := []
  rhsBatch := []
  wf := dot_S262144x128_S128x1_S262144x1_1_0_0_1_n_n_wf

class Facts : Prop extends Facts₀ where

variable [Facts]
-- ==== Proof.KernelBlocks.lean ====
/-
  The kernel's windows, read through a grid point's block.

  The grid has 64 points; point `t` works on rows `4096·t … 4096·t + 4095`. The embedding window and the linear-term
  window move with the point: entry `(p, d)` of the block at `t` is entry `(4096·t + p, d)` of the array. The twelve weight
  and bias windows do not move: their block at every point is the whole array. The output window moves like the first
  two. Each of these facts is the block's coordinate arithmetic (index × block size + coordinate inside the block)
  with the index maps decided once over the 64 points.
-/
import proofs.«179928_j53961969107175_2_alg».proof.Proof.PatchedKernelIdealValue
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelBlocks

open Cert.KernelIdeal Cert.KernelIdeal.Gen Cert.KernelIdeal.GenP Idealize.ShloMosaic.ValueIdx

variable (m : (ℓ : Loc nD τ sig) → Buf (Elt Ideal) ℓ)

/-- The zero offset of a whole-buffer rectangle. -/
theorem hz : (![0, 0] : Fin 2 → Nat) = fun _ => 0 := funext fun a => by fin_cases a <;> rfl

/-- The printed index maps over the grid: the embedding, linear-term and output windows are at block `(t, 0)` at point
    `t`; every weight and bias window stays at block `(0, 0)`. -/
theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_14.index t (0 : Fin 2) = t.val
    ∧ win0_14.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (0 : Fin 2) = 0
    ∧ win0_13.index t (1 : Fin 2) = 0 :=
  (by decide +kernel : ∀ t : Fin grid0.N, _)

/-- The array row that row `p` of the block at point `t` is. -/
def rowOf (t : Fin cfg0.N) (p : Fin 4096) : Fin 262144 :=
  ⟨4096 * t.val + p.val, by
    have h : t.val < 64 := lt_of_lt_of_eq t.isLt N_0
    have hp := p.isLt
    omega⟩

/-- Entry `(p, d)` of the embedding window's block at point `t` is entry `(4096·t + p, d)` of the embedding array. -/
theorem iblk0_apply (c : Dev nD) (t : Fin cfg0.N) (p : Fin 4096) (d : Fin 128) :
    (iblk m c 0 t : Vec Ideal S4096x128 .bf16) (ix2 p d)
      = (V m c main_v16 : S262144x128.Idx → Elt Ideal .bf16) (ix2 (rowOf t p) d) := by
  obtain ⟨e0a, e0b, e1a, e1b, e14a, e14b, r2a, r2b, r3a, r3b, r4a, r4b, r5a, r5b, r6a, r6b, r7a, r7b, r8a, r8b, r9a, r9b, r10a, r10b, r11a, r11b, r12a, r12b, r13a, r13b⟩ := idx_facts t
  unfold iblk
  rw [View.read_apply]
  show V m c main_v16 _ = V m c main_v16 _
  congr 1
  funext a
  apply Fin.ext
  match a with
  | ⟨0, _⟩ => show win0_0.index t (0 : Fin 2) * 4096 + 1 * p.val = 4096 * t.val + p.val; rw [e0a]; omega
  | ⟨1, _⟩ => show win0_0.index t (1 : Fin 2) * 128 + 1 * d.val = d.val; rw [e0b]; omega

/-- Entry `(p, u)` of the linear-term window's block at point `t` is entry `(4096·t + p, u)` of the linear-term array. -/
theorem iblk1_apply (c : Dev nD) (t : Fin cfg0.N) (p : Fin 4096) (u : Fin 1) :
    (iblk m c 1 t : Vec Ideal S4096x1 .f32) (ix2 p u)
      = (V m c main_v36 : S262144x1.Idx → Elt Ideal .f32) (ix2 (rowOf t p) u) := by
  obtain ⟨e0a, e0b, e1a, e1b, e14a, e14b, r2a, r2b, r3a, r3b, r4a, r4b, r5a, r5b, r6a, r6b, r7a, r7b, r8a, r8b, r9a, r9b, r10a, r10b, r11a, r11b, r12a, r12b, r13a, r13b⟩ := idx_facts t
  unfold iblk
  rw [View.read_apply]
  show V m c main_v36 _ = V m c main_v36 _
  congr 1
  funext a
  apply Fin.ext
  match a with
  | ⟨0, _⟩ => show win0_1.index t (0 : Fin 2) * 4096 + 1 * p.val = 4096 * t.val + p.val; rw [e1a]; omega
  | ⟨1, _⟩ => show win0_1.index t (1 : Fin 2) * 1 + 1 * u.val = u.val; rw [e1b]; omega

/-- Entry `(p, u)` of the output window's block at point `t` sits at `(4096·t + p, u)` in the output array. -/
theorem emb14 (t : Fin cfg0.N) (p : Fin 4096) (u : Fin 1) :
    ((cfg0.win 14).blk t).view.emb (ix2 p u) = (ix2 (rowOf t p) u : S262144x1.Idx) := by
  obtain ⟨e0a, e0b, e1a, e1b, e14a, e14b, r2a, r2b, r3a, r3b, r4a, r4b, r5a, r5b, r6a, r6b, r7a, r7b, r8a, r8b, r9a, r9b, r10a, r10b, r11a, r11b, r12a, r12b, r13a, r13b⟩ := idx_facts t
  funext a
  apply Fin.ext
  match a with
  | ⟨0, _⟩ => show win0_14.index t (0 : Fin 2) * 4096 + 1 * p.val = 4096 * t.val + p.val; rw [e14a]; omega
  | ⟨1, _⟩ => show win0_14.index t (1 : Fin 2) * 1 + 1 * u.val = u.val; rw [e14b]; omega

/-- Window 2 does not move: its block at every point is the whole `[128, 128]` array. -/
theorem iblk2_eq (c : Dev nD) (t : Fin cfg0.N) :
    (iblk m c 2 t : Vec Ideal S128x128 .bf16) = (V m c main_v38 : S128x128.Idx → Elt Ideal .bf16) := by
  obtain ⟨e0a, e0b, e1a, e1b, e14a, e14b, r2a, r2b, r3a, r3b, r4a, r4b, r5a, r5b, r6a, r6b, r7a, r7b, r8a, r8b, r9a, r9b, r10a, r10b, r11a, r11b, r12a, r12b, r13a, r13b⟩ := idx_facts t
  funext y
  unfold iblk
  rw [View.read_apply]
  show V m c main_v38 _ = V m c main_v38 y
  congr 1
  funext a
  apply Fin.ext
  match a with
  | ⟨0, _⟩ => show win0_2.index t (0 : Fin 2) * 128 + 1 * (y 0).val = (y 0).val; rw [r2a]; omega
  | ⟨1, _⟩ => show win0_2.index t (1 : Fin 2) * 128 + 1 * (y 1).val = (y 1).val; rw [r2b]; omega

/-- Window 3 does not move: its block at every point is the whole `[128, 128]` array. -/
theorem iblk3_eq (c : Dev nD) (t : Fin cfg0.N) :
    (iblk m c 3 t : Vec Ideal S128x128 .bf16) = (V m c main_v39 : S128x128.Idx → Elt Ideal .bf16) := by
  obtain ⟨e0a, e0b, e1a, e1b, e14a, e14b, r2a, r2b, r3a, r3b, r4a, r4b, r5a, r5b, r6a, r6b, r7a, r7b, r8a, r8b, r9a, r9b, r10a, r10b, r11a, r11b, r12a, r12b, r13a, r13b⟩ := idx_facts t
  funext y
  unfold iblk
  rw [View.read_apply]
  show V m c main_v39 _ = V m c main_v39 y
  congr 1
  funext a
  apply Fin.ext
  match a with
  | ⟨0, _⟩ => show win0_3.index t (0 : Fin 2) * 128 + 1 * (y 0).val = (y 0).val; rw [r3a]; omega
  | ⟨1, _⟩ => show win0_3.index t (1 : Fin 2) * 128 + 1 * (y 1).val = (y 1).val; rw [r3b]; omega

/-- Window 4 does not move: its block at every point is the whole `[128, 200]` array. -/
theorem iblk4_eq (c : Dev nD) (t : Fin cfg0.N) :
    (iblk m c 4 t : Vec Ideal S128x200 .bf16) = (V m c main_v40 : S128x200.Idx → Elt Ideal .bf16) := by
  obtain ⟨e0a, e0b, e1a, e1b, e14a, e14b, r2a, r2b, r3a, r3b, r4a, r4b, r5a, r5b, r6a, r6b, r7a, r7b, r8a, r8b, r9a, r9b, r10a, r10b, r11a, r11b, r12a, r12b, r13a, r13b⟩ := idx_facts t
  funext y
  unfold iblk
  rw [View.read_apply]
  show V m c main_v40 _ = V m c main_v40 y
  congr 1
  funext a
  apply Fin.ext
  match a with
  | ⟨0, _⟩ => show win0_4.index t (0 : Fin 2) * 128 + 1 * (y 0).val = (y 0).val; rw [r4a]; omega
  | ⟨1, _⟩ => show win0_4.index t (1 : Fin 2) * 200 + 1 * (y 1).val = (y 1).val; rw [r4b]; omega

/-- Window 5 does not move: its block at every point is the whole `[1, 200]` array. -/
theorem iblk5_eq (c : Dev nD) (t : Fin cfg0.N) :
    (iblk m c 5 t : Vec Ideal S1x200 .f32) = (V m c main_v45 : S1x200.Idx → Elt Ideal .f32) := by
  obtain ⟨e0a, e0b, e1a, e1b, e14a, e14b, r2a, r2b, r3a, r3b, r4a, r4b, r5a, r5b, r6a, r6b, r7a, r7b, r8a, r8b, r9a, r9b, r10a, r10b, r11a, r11b, r12a, r12b, r13a, r13b⟩ := idx_facts t
  funext y
  unfold iblk
  rw [View.read_apply]
  show V m c main_v45 _ = V m c main_v45 y
  congr 1
  funext a
  apply Fin.ext
  match a with
  | ⟨0, _⟩ => show win0_5.index t (0 : Fin 2) * 1 + 1 * (y 0).val = (y 0).val; rw [r5a]; omega
  | ⟨1, _⟩ => show win0_5.index t (1 : Fin 2) * 200 + 1 * (y 1).val = (y 1).val; rw [r5b]; omega

/-- Window 6 does not move: its block at every point is the whole `[200, 256]` array. -/
theorem iblk6_eq (c : Dev nD) (t : Fin cfg0.N) :
    (iblk m c 6 t : Vec Ideal S200x256 .bf16) = (V m c main_v41 : S200x256.Idx → Elt Ideal .bf16) := by
  obtain ⟨e0a, e0b, e1a, e1b, e14a, e14b, r2a, r2b, r3a, r3b, r4a, r4b, r5a, r5b, r6a, r6b, r7a, r7b, r8a, r8b, r9a, r9b, r10a, r10b, r11a, r11b, r12a, r12b, r13a, r13b⟩ := idx_facts t
  funext y
  unfold iblk
  rw [View.read_apply]
  show V m c main_v41 _ = V m c main_v41 y
  congr 1
  funext a
  apply Fin.ext
  match a with
  | ⟨0, _⟩ => show win0_6.index t (0 : Fin 2) * 200 + 1 * (y 0).val = (y 0).val; rw [r6a]; omega
  | ⟨1, _⟩ => show win0_6.index t (1 : Fin 2) * 256 + 1 * (y 1).val = (y 1).val; rw [r6b]; omega

/-- Window 7 does not move: its block at every point is the whole `[1, 256]` array. -/
theorem iblk7_eq (c : Dev nD) (t : Fin cfg0.N) :
    (iblk m c 7 t : Vec Ideal S1x256 .f32) = (V m c main_v46 : S1x256.Idx → Elt Ideal .f32) := by
  obtain ⟨e0a, e0b, e1a, e1b, e14a, e14b, r2a, r2b, r3a, r3b, r4a, r4b, r5a, r5b, r6a, r6b, r7a, r7b, r8a, r8b, r9a, r9b, r10a, r10b, r11a, r11b, r12a, r12b, r13a, r13b⟩ := idx_facts t
  funext y
  unfold iblk
  rw [View.read_apply]
  show V m c main_v46 _ = V m c main_v46 y
  congr 1
  funext a
  apply Fin.ext
  match a with
  | ⟨0, _⟩ => show win0_7.index t (0 : Fin 2) * 1 + 1 * (y 0).val = (y 0).val; rw [r7a]; omega
  | ⟨1, _⟩ => show win0_7.index t (1 : Fin 2) * 256 + 1 * (y 1).val = (y 1).val; rw [r7b]; omega

/-- Window 8 does not move: its block at every point is the whole `[256, 200]` array. -/
theorem iblk8_eq (c : Dev nD) (t : Fin cfg0.N) :
    (iblk m c 8 t : Vec Ideal S256x200 .bf16) = (V m c main_v42 : S256x200.Idx → Elt Ideal .bf16) := by
  obtain ⟨e0a, e0b, e1a, e1b, e14a, e14b, r2a, r2b, r3a, r3b, r4a, r4b, r5a, r5b, r6a, r6b, r7a, r7b, r8a, r8b, r9a, r9b, r10a, r10b, r11a, r11b, r12a, r12b, r13a, r13b⟩ := idx_facts t
  funext y
  unfold iblk
  rw [View.read_apply]
  show V m c main_v42 _ = V m c main_v42 y
  congr 1
  funext a
  apply Fin.ext
  match a with
  | ⟨0, _⟩ => show win0_8.index t (0 : Fin 2) * 256 + 1 * (y 0).val = (y 0).val; rw [r8a]; omega
  | ⟨1, _⟩ => show win0_8.index t (1 : Fin 2) * 200 + 1 * (y 1).val = (y 1).val; rw [r8b]; omega

/-- Window 9 does not move: its block at every point is the whole `[1, 200]` array. -/
theorem iblk9_eq (c : Dev nD) (t : Fin cfg0.N) :
    (iblk m c 9 t : Vec Ideal S1x200 .f32) = (V m c main_v47 : S1x200.Idx → Elt Ideal .f32) := by
  obtain ⟨e0a, e0b, e1a, e1b, e14a, e14b, r2a, r2b, r3a, r3b, r4a, r4b, r5a, r5b, r6a, r6b, r7a, r7b, r8a, r8b, r9a, r9b, r10a, r10b, r11a, r11b, r12a, r12b, r13a, r13b⟩ := idx_facts t
  funext y
  unfold iblk
  rw [View.read_apply]
  show V m c main_v47 _ = V m c main_v47 y
  congr 1
  funext a
  apply Fin.ext
  match a with
  | ⟨0, _⟩ => show win0_9.index t (0 : Fin 2) * 1 + 1 * (y 0).val = (y 0).val; rw [r9a]; omega
  | ⟨1, _⟩ => show win0_9.index t (1 : Fin 2) * 200 + 1 * (y 1).val = (y 1).val; rw [r9b]; omega

/-- Window 10 does not move: its block at every point is the whole `[200, 128]` array. -/
theorem iblk10_eq (c : Dev nD) (t : Fin cfg0.N) :
    (iblk m c 10 t : Vec Ideal S200x128 .bf16) = (V m c main_v43 : S200x128.Idx → Elt Ideal .bf16) := by
  obtain ⟨e0a, e0b, e1a, e1b, e14a, e14b, r2a, r2b, r3a, r3b, r4a, r4b, r5a, r5b, r6a, r6b, r7a, r7b, r8a, r8b, r9a, r9b, r10a, r10b, r11a, r11b, r12a, r12b, r13a, r13b⟩ := idx_facts t
  funext y
  unfold iblk
  rw [View.read_apply]
  show V m c main_v43 _ = V m c main_v43 y
  congr 1
  funext a
  apply Fin.ext
  match a with
  | ⟨0, _⟩ => show win0_10.index t (0 : Fin 2) * 200 + 1 * (y 0).val = (y 0).val; rw [r10a]; omega
  | ⟨1, _⟩ => show win0_10.index t (1 : Fin 2) * 128 + 1 * (y 1).val = (y 1).val; rw [r10b]; omega

/-- Window 11 does not move: its block at every point is the whole `[1, 128]` array. -/
theorem iblk11_eq (c : Dev nD) (t : Fin cfg0.N) :
    (iblk m c 11 t : Vec Ideal S1x128 .f32) = (V m c main_v48 : S1x128.Idx → Elt Ideal .f32) := by
  obtain ⟨e0a, e0b, e1a, e1b, e14a, e14b, r2a, r2b, r3a, r3b, r4a, r4b, r5a, r5b, r6a, r6b, r7a, r7b, r8a, r8b, r9a, r9b, r10a, r10b, r11a, r11b, r12a, r12b, r13a, r13b⟩ := idx_facts t
  funext y
  unfold iblk
  rw [View.read_apply]
  show V m c main_v48 _ = V m c main_v48 y
  congr 1
  funext a
  apply Fin.ext
  match a with
  | ⟨0, _⟩ => show win0_11.index t (0 : Fin 2) * 1 + 1 * (y 0).val = (y 0).val; rw [r11a]; omega
  | ⟨1, _⟩ => show win0_11.index t (1 : Fin 2) * 128 + 1 * (y 1).val = (y 1).val; rw [r11b]; omega

/-- Window 12 does not move: its block at every point is the whole `[128, 1]` array. -/
theorem iblk12_eq (c : Dev nD) (t : Fin cfg0.N) :
    (iblk m c 12 t : Vec Ideal S128x1 .bf16) = (V m c main_v44 : S128x1.Idx → Elt Ideal .bf16) := by
  obtain ⟨e0a, e0b, e1a, e1b, e14a, e14b, r2a, r2b, r3a, r3b, r4a, r4b, r5a, r5b, r6a, r6b, r7a, r7b, r8a, r8b, r9a, r9b, r10a, r10b, r11a, r11b, r12a, r12b, r13a, r13b⟩ := idx_facts t
  funext y
  unfold iblk
  rw [View.read_apply]
  show V m c main_v44 _ = V m c main_v44 y
  congr 1
  funext a
  apply Fin.ext
  match a with
  | ⟨0, _⟩ => show win0_12.index t (0 : Fin 2) * 128 + 1 * (y 0).val = (y 0).val; rw [r12a]; omega
  | ⟨1, _⟩ => show win0_12.index t (1 : Fin 2) * 1 + 1 * (y 1).val = (y 1).val; rw [r12b]; omega

/-- Window 13 does not move: its block at every point is the whole `[1, 1]` array. -/
theorem iblk13_eq (c : Dev nD) (t : Fin cfg0.N) :
    (iblk m c 13 t : Vec Ideal S1x1 .f32) = (V m c main_v49 : S1x1.Idx → Elt Ideal .f32) := by
  obtain ⟨e0a, e0b, e1a, e1b, e14a, e14b, r2a, r2b, r3a, r3b, r4a, r4b, r5a, r5b, r6a, r6b, r7a, r7b, r8a, r8b, r9a, r9b, r10a, r10b, r11a, r11b, r12a, r12b, r13a, r13b⟩ := idx_facts t
  funext y
  unfold iblk
  rw [View.read_apply]
  show V m c main_v49 _ = V m c main_v49 y
  congr 1
  funext a
  apply Fin.ext
  match a with
  | ⟨0, _⟩ => show win0_13.index t (0 : Fin 2) * 1 + 1 * (y 0).val = (y 0).val; rw [r13a]; omega
  | ⟨1, _⟩ => show win0_13.index t (1 : Fin 2) * 1 + 1 * (y 1).val = (y 1).val; rw [r13b]; omega

end Cert.KernelBlocks

end
-- ==== Proof.RowModel.lean ====
/-
  One row of the factorization-machine network, as a function on the extended reals.

  A row carries an embedding `x` of 128 entries and a linear term `l`. Its output is the logistic function of the
  sum of three terms:
    • the linear term `l`;
    • the pairwise-interaction term: half the mean, over the 128 columns `q` of the interaction matrix `ck`, of
      `(Σ_d x_d · ck_{d,q})² − Σ_d x_d² · cksq_{d,q}` (`cksq` is the entrywise square of `ck` in both programs; it is a
      parameter here so that each program may supply its own array for it);
    • the deep term: four affine layers `y ↦ max (y · W + b) 0` of widths 200, 256, 200, 128 followed by an affine layer
      onto one entry.
  Sums are finite sums over `Fin`, products and sums are those of the extended reals, the quotient is the exact
  quotient `Ideal.div`, and the float constants one half, one hundred and twenty-eight and zero are kept as their words.
-/
import Idealize.ShloMosaic.PureOps.Ideal

noncomputable section

open scoped BigOperators

namespace Cert.RowModel

open Idealize.ShloMosaic

/-- Entry `q` of the affine map `x · w + bias`. -/
def affine {k b : ℕ} (x : Fin k → EReal) (w : Fin k → Fin b → EReal) (bias : Fin b → EReal) (q : Fin b) : EReal :=
  (∑ d : Fin k, x d * w d q) + bias q

/-- The rectifier: the larger of a value and the float zero. -/
def relu (y : EReal) : EReal := max y (Ideal.ofBits .f32 0x00000000#32)

/-- The sum over the columns `q` of `(Σ_d x_d · ck_{d,q})² − Σ_d x_d² · cksq_{d,q}`. -/
def interaction (x : Fin 128 → EReal) (ck cksq : Fin 128 → Fin 128 → EReal) : EReal :=
  ∑ q : Fin 128, ((∑ d : Fin 128, x d * ck d q) * (∑ d : Fin 128, x d * ck d q) - ∑ d : Fin 128, (x d * x d) * cksq d q)

/-- The pairwise-interaction term: one half of the mean of `interaction` over its 128 columns. -/
def cross (x : Fin 128 → EReal) (ck cksq : Fin 128 → Fin 128 → EReal) : EReal :=
  Ideal.ofBits .f32 0x3F000000#32 * Ideal.div (interaction x ck cksq) (Ideal.ofBits .f32 0x43000000#32)

/-- The deep term: four rectified affine layers and a last affine layer onto one entry. -/
def deep (x : Fin 128 → EReal) (W1 : Fin 128 → Fin 200 → EReal) (b1 : Fin 200 → EReal)
    (W2 : Fin 200 → Fin 256 → EReal) (b2 : Fin 256 → EReal) (W3 : Fin 256 → Fin 200 → EReal) (b3 : Fin 200 → EReal)
    (W4 : Fin 200 → Fin 128 → EReal) (b4 : Fin 128 → EReal) (W5 : Fin 128 → Fin 1 → EReal) (b5 : Fin 1 → EReal) : EReal :=
  affine (fun q => relu (affine (fun j => relu (affine (fun k => relu (affine (fun j' => relu (affine x W1 b1 j')) W2 b2 k))
    W3 b3 j)) W4 b4 q)) W5 b5 0

/-- The row's output: the logistic function of linear term + interaction term + deep term, added in that order. -/
def rowOut (x : Fin 128 → EReal) (l : EReal) (ck cksq : Fin 128 → Fin 128 → EReal)
    (W1 : Fin 128 → Fin 200 → EReal) (b1 : Fin 200 → EReal)
    (W2 : Fin 200 → Fin 256 → EReal) (b2 : Fin 256 → EReal) (W3 : Fin 256 → Fin 200 → EReal) (b3 : Fin 200 → EReal)
    (W4 : Fin 200 → Fin 128 → EReal) (b4 : Fin 128 → EReal) (W5 : Fin 128 → Fin 1 → EReal) (b5 : Fin 1 → EReal) : EReal :=
  Ideal.logistic ((l + cross x ck cksq) + deep x W1 b1 W2 b2 W3 b3 W4 b4 W5 b5)

end Cert.RowModel

end
-- ==== Proof.LibMatmulRead.lean ====
/-
  A matrix product and a transpose read entry by entry.

  Three facts about rank-2 arrays of extended reals, each stated at an index given by its two coordinates:
    • the transpose of an `[a, b]` array reads, at `(q, p)`, the operand at `(p, q)`;
    • a matrix product that contracts the second axis of an `[a, k]` array with the first axis of a `[k, b]`
      array, started from the zero accumulator, reads at `(p, q)` the sum over `d` of the left operand at
      `(p, d)` times the right operand at `(d, q)`;
    • so the product of an `[a, k]` array with the TRANSPOSE of a `[b, k]` array reads at `(p, q)` the inner
      product of row `p` of the first with row `q` of the second.
  The record of dimension numbers is any one whose six axis lists are the plain product's; at a literal record each
  of the six hypotheses is `rfl`.
-/
import Idealize.ShloMosaic.PureOps.Ideal.Laws
import Idealize.ShloMosaic.Lib.Pipeline.Value
import Idealize.ShloMosaic.Lib.ValueIdx

namespace Idealize.ShloMosaic.ValueIdx

open Idealize.ShloMosaic

/-- The transpose of an `[a, b]` array reads, at `(q, p)`, the operand at `(p, q)`. -/
theorem transpose_ab_ba_apply {α : Type} {a b : ℕ} (x : (⟨2, ![a, b]⟩ : Shape).Idx → α)
    (h : (⟨2, ![a, b]⟩ : Shape).Transposes [1, 0] ⟨2, ![b, a]⟩) (q : Fin b) (p : Fin a) :
    transpose ⟨2, ![b, a]⟩ [1, 0] x h (ix2 q p) = x (ix2 p q) :=
  transpose_apply [1, 0] x h (ix2 q p) (ix2 p q) fun ax => by
    match ax with
    | ⟨0, _⟩ => rfl
    | ⟨1, _⟩ => rfl

/-- A product contracting the second axis of the left operand with the first axis of the right one, from the zero
    accumulator, read at `(p, q)`: the sum over the contracted coordinate. -/
theorem matmul_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![k, b]⟩ φ₂)
    (p : Fin a) (q : Fin b) :
    matmul D prec x w (constant (F := Ideal) ⟨2, ![a, b]⟩ .f32 0x00000000#32) (ix2 p q)
      = ∑ d : Fin k, x (ix2 p d) * w (ix2 d q) := by
  obtain ⟨lc, rc, ln, rn, lb, rb, wf⟩ := D
  dsimp only at hlc hrc hln hrn hlb hrb
  subst hlc hrc hln hrn hlb hrb
  refine (Ideal.matmul_constant_zero_apply _ prec x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => exact (DotDims.rhsIdx_val_of_single _ rfl _ _).trans (contrEquiv1_symm_val _ k rfl rfl d)
    | ⟨1, _⟩ => rfl

/-- The product of an `[a, k]` array with the transpose of a `[b, k]` array, from the zero accumulator, read at
    `(p, q)`: the inner product of row `p` of the first with row `q` of the second. -/
theorem matmul_transpose_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![b, k]⟩ φ₂)
    (h : (⟨2, ![b, k]⟩ : Shape).Transposes [1, 0] ⟨2, ![k, b]⟩) (p : Fin a) (q : Fin b) :
    matmul D prec x (transpose ⟨2, ![k, b]⟩ [1, 0] w h) (constant (F := Ideal) ⟨2, ![a, b]⟩ .f32 0x00000000#32) (ix2 p q)
      = ∑ d : Fin k, x (ix2 p d) * w (ix2 q d) :=
  (matmul_ix2_apply D hlc hrc hln hrn hlb hrb prec x _ p q).trans
    (Finset.sum_congr rfl fun d _ => congrArg (x (ix2 p d) * ·) (transpose_ab_ba_apply w h d q))

end Idealize.ShloMosaic.ValueIdx
-- ==== Proof.LibColumnLayout.lean ====
/-
  A column kept as a unit axis, read at an index given by coordinates.

  A reduction over the last axis of an `[a, b]` array that keeps that axis (a row maximum or a row sum with the
  reduced axis retained) produces an `[a]` vector, casts it to the column `[a, 1]` and broadcasts the column back
  over the `b` entries of each row. Two facts say what those two steps do to an entry:
    • the vector cast to a column reads, at `(p, u)`, the vector at `p`, whatever the unit coordinate `u`;
    • the column broadcast over `b` columns reads, at `(p, c)`, the column at `(p, 0)`.
  Both are the general shape-cast and broadcast readings with the coordinates' arithmetic done once.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(p, u)`, the operand at `p`, whatever the unit
    coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelRow.lean ====
/-
  The kernel's body read at one row.

  The body computes, for a block of 4096 rows at once, the interaction term (two matrix products into the zero
  accumulator, a sum over the 128 columns, a division by 128 and a product with one half), the five affine layers of
  the deep term with a rectifier after each of the first four, and the logistic function of
  (linear term + interaction term) + deep term. Every operation acts row by row: a matrix product's entry (p, q) is
  the sum over d of the left operand at (p, d) times the right operand at (d, q); a bias row [1, b] broadcast down the
  rows reads its entry q; the rectifier, the format changes (the identity at the exact values), the products and the
  sums act entry by entry. So the value at row p is the row model's output on row p of the embedding block and of the
  linear-term column. The general facts come first (over arbitrary extents), then the four named parts of the body.
-/
import proofs.«179928_j53961969107175_2_alg».proof.Proof.Gen.KernelIdeal.Skeleton
import proofs.«179928_j53961969107175_2_alg».proof.Proof.RowModel
import proofs.«179928_j53961969107175_2_alg».proof.Proof.LibMatmulRead
import proofs.«179928_j53961969107175_2_alg».proof.Proof.LibColumnLayout
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelRow

open Cert.KernelIdeal Cert.KernelIdeal.Gen Cert.RowModel Idealize.ShloMosaic Idealize.ShloMosaic.ValueIdx

/-! ## General facts: one operation of the body read at an index -/

/-- A matrix product from the zero accumulator whose right operand is cast to its own shape, read at `(p, q)`, once row
    `p` of the left operand is known to be `xrow`. -/
theorem mm_read {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (X : FVec Ideal ⟨2, ![a, k]⟩ φ₁) (W : FVec Ideal ⟨2, ![k, b]⟩ φ₂)
    (hW : (⟨2, ![k, b]⟩ : Shape).ShapeCasts ⟨2, ![k, b]⟩)
    (p : Fin a) (xrow : Fin k → EReal) (hX : ∀ d, X (ix2 p d) = xrow d) (q : Fin b) :
    matmul D prec X (shapeCast ⟨2, ![k, b]⟩ W hW) (constant (F := Ideal) ⟨2, ![a, b]⟩ .f32 0x00000000#32) (ix2 p q)
      = ∑ d : Fin k, xrow d * W (ix2 d q) := by
  rw [shapeCast_self]
  refine (matmul_ix2_apply D hlc hrc hln hrn hlb hrb prec X W p q).trans ?_
  exact Finset.sum_congr rfl fun d _ => congrArg (· * W (ix2 d q)) (hX d)

/-- One affine layer — the product plus the bias row broadcast down the rows — read at `(p, q)`. -/
theorem layer_read {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (X : FVec Ideal ⟨2, ![a, k]⟩ φ₁) (W : FVec Ideal ⟨2, ![k, b]⟩ φ₂)
    (hW : (⟨2, ![k, b]⟩ : Shape).ShapeCasts ⟨2, ![k, b]⟩)
    (bias : FVec Ideal ⟨2, ![1, b]⟩ .f32) (hB : (⟨2, ![1, b]⟩ : Shape).ShapeCasts ⟨2, ![1, b]⟩)
    (hbc : (⟨2, ![1, b]⟩ : Shape).Broadcasts ⟨2, ![a, b]⟩)
    (p : Fin a) (xrow : Fin k → EReal) (hX : ∀ d, X (ix2 p d) = xrow d) (q : Fin b) :
    addf (matmul D prec X (shapeCast ⟨2, ![k, b]⟩ W hW) (constant (F := Ideal) ⟨2, ![a, b]⟩ .f32 0x00000000#32))
        (broadcastTo ⟨2, ![a, b]⟩ (shapeCast ⟨2, ![1, b]⟩ bias hB) hbc) (ix2 p q)
      = affine xrow (fun d q => W (ix2 d q)) (fun q => bias (ix2 (0 : Fin 1) q)) q := by
  refine (addf_apply _ _ _).trans ?_
  unfold affine
  refine congrArg₂ (· + ·) (mm_read D hlc hrc hln hrn hlb hrb prec X W hW p xrow hX q) ?_
  rw [shapeCast_self]
  exact broadcastTo_1b_ab_apply bias hbc p q

/-- The rectifier followed by the format change (the identity at the exact values), read at an index. -/
theorem relu_read {s : Shape} (V : FVec Ideal s .f32) (h : FTy.bits .bf16 < FTy.bits .f32) (i : s.Idx) :
    (truncf .bf16 (maximumf V (broadcast s (Scalar.ofBits (F := Ideal) .f32 0x00000000#32))) h : FVec Ideal s .bf16) i
      = relu (V i) := rfl

/-- The entrywise square taken through the two format changes, read at an index. -/
theorem sq_read {s : Shape} (e : FVec Ideal s .bf16) (h : FTy.bits .bf16 < FTy.bits .f32) (i : s.Idx) :
    (truncf .bf16 (mulf (extf .f32 e h) (extf .f32 e h)) h : FVec Ideal s .bf16) i = e i * e i := rfl

/-- A square minus another array, read at an index. -/
theorem sq_sub_read {s : Shape} (M M2 : FVec Ideal s .f32) (i : s.Idx) :
    subf (mulf M M) M2 i = M i * M i - M2 i := rfl

/-- A sum over the second axis of an `[a, b]` array, read at row `p`: the sum over the columns. -/
theorem rowsum_read {a b : ℕ} (V : FVec Ideal ⟨2, ![a, b]⟩ .f32)
    (hred : (⟨2, ![a, b]⟩ : Shape).Reduces [1] ⟨1, ![a]⟩) (hφ : FKind.Formats .f32)
    (hacc : (0x00000000#32 : BitVec (FTy.bits .f32)) = FKind.add.neutral .f32 hφ) (p : Fin a) :
    multiReduction .add [1] ⟨1, ![a]⟩ V 0x00000000#32 hred hφ hacc (ix1 p) = ∑ q : Fin b, V (ix2 p q) := by
  refine (Ideal.multiReduction_add_single V _ hred hφ hacc (ix1 p)).trans ?_
  refine Finset.sum_congr rfl fun q _ => congrArg V (funext fun ax => Fin.ext ?_)
  match ax with
  | ⟨0, _⟩ => rfl
  | ⟨1, _⟩ => rfl

/-- The row sums kept as a column, divided by a splat and multiplied by a splat, read at `(p, u)`. -/
theorem scaled_mean_read {a b : ℕ} (V : FVec Ideal ⟨2, ![a, b]⟩ .f32)
    (hred : (⟨2, ![a, b]⟩ : Shape).Reduces [1] ⟨1, ![a]⟩) (hφ : FKind.Formats .f32)
    (hacc : (0x00000000#32 : BitVec (FTy.bits .f32)) = FKind.add.neutral .f32 hφ)
    (hcast : (⟨1, ![a]⟩ : Shape).ShapeCasts ⟨2, ![a, 1]⟩) (c1 c2 : Ideal .f32) (p : Fin a) (u : Fin 1) :
    mulf (broadcast ⟨2, ![a, 1]⟩ c1)
        (divf (shapeCast ⟨2, ![a, 1]⟩ (multiReduction .add [1] ⟨1, ![a]⟩ V 0x00000000#32 hred hφ hacc) hcast)
          (broadcast ⟨2, ![a, 1]⟩ c2)) (ix2 p u)
      = c1 * Ideal.div (∑ q : Fin b, V (ix2 p q)) c2 := by
  refine (mulf_apply _ _ _).trans ?_
  refine congrArg (c1 * ·) ?_
  refine (divf_apply _ _ _).trans ?_
  refine congrArg (Ideal.div · c2) ?_
  refine (shapeCast_a_a1_apply _ hcast p u).trans ?_
  exact rowsum_read V hred hφ hacc p

/-- The logistic function of (a term cast to its own shape + a second term) + a third, read at an index. -/
theorem out_read {s : Shape} (L C Dp : FVec Ideal s .f32) (hL : s.ShapeCasts s) (i : s.Idx) :
    logistic (addf (addf (shapeCast s L hL) C) Dp) i = Ideal.logistic ((L i + C i) + Dp i) := by
  rw [shapeCast_self]; rfl

/-! ## The body's parts at a row -/

variable [Cert.KernelIdeal.Facts]

/-- The embedding block cast to its own shape reads the block. -/
theorem pay2_read (x0 : FVec Ideal S4096x128 .bf16) (j : S4096x128.Idx) : k0_pay2 (F := Ideal) x0 j = x0 j := by
  unfold k0_pay2
  rw [shapeCast_self]

/-- The interaction term of row `p`. -/
theorem pay3_row (x0 : FVec Ideal S4096x128 .bf16) (x2 x3 : FVec Ideal S128x128 .bf16) (p : Fin 4096) (u : Fin 1) :
    k0_pay3 (F := Ideal) x0 x2 x3 (ix2 p u)
      = cross (fun d => x0 (ix2 p d)) (fun d q => x2 (ix2 d q)) (fun d q => x3 (ix2 d q)) := by
  unfold k0_pay3
  refine (scaled_mean_read _ _ _ _ _ _ _ p u).trans ?_
  unfold cross interaction
  refine congrArg (fun t => Ideal.ofBits .f32 0x3F000000#32 * Ideal.div t (Ideal.ofBits .f32 0x43000000#32)) ?_
  refine Finset.sum_congr rfl fun q _ => ?_
  refine (sq_sub_read _ _ _).trans ?_
  have h1 : matmul dot_S4096x128_S128x128_S4096x128_1_0_0_1_n_n none (k0_pay2 (F := Ideal) x0)
        (shapeCast S128x128 x2 Facts₀.shapeCasts_S128x128_S128x128) (constant (F := Ideal) S4096x128 .f32 0x00000000#32) (ix2 p q)
      = ∑ d : Fin 128, x0 (ix2 p d) * x2 (ix2 d q) :=
    mm_read dot_S4096x128_S128x128_S4096x128_1_0_0_1_n_n rfl rfl rfl rfl rfl rfl none _ x2 _ p _ (fun d => pay2_read x0 (ix2 p d)) q
  refine congrArg₂ (· - ·) (congrArg₂ (· * ·) h1 h1) ?_
  refine mm_read dot_S4096x128_S128x128_S4096x128_1_0_0_1_n_n rfl rfl rfl rfl rfl rfl none _ x3 _ p _ (fun d => ?_) q
  refine (sq_read _ _ _).trans ?_
  exact congrArg₂ (· * ·) (pay2_read x0 (ix2 p d)) (pay2_read x0 (ix2 p d))

/-- The first two affine layers of the deep term (the first one rectified) at row `p`. -/
theorem pay4_row (x0 : FVec Ideal S4096x128 .bf16) (x4 : FVec Ideal S128x200 .bf16) (x5 : FVec Ideal S1x200 .f32)
    (x6 : FVec Ideal S200x256 .bf16) (x7 : FVec Ideal S1x256 .f32) (p : Fin 4096) (k : Fin 256) :
    k0_pay4 (F := Ideal) x0 x4 x5 x6 x7 (ix2 p k)
      = affine (fun j' => relu (affine (fun d => x0 (ix2 p d)) (fun d j => x4 (ix2 d j)) (fun j => x5 (ix2 (0 : Fin 1) j)) j'))
          (fun j k => x6 (ix2 j k)) (fun k => x7 (ix2 (0 : Fin 1) k)) k := by
  unfold k0_pay4
  refine layer_read dot_S4096x200_S200x256_S4096x256_1_0_0_1_n_n rfl rfl rfl rfl rfl rfl none _ x6 _ x7 _ _ p _ (fun j' => ?_) k
  refine (relu_read _ _ _).trans (congrArg relu ?_)
  exact layer_read dot_S4096x128_S128x200_S4096x200_1_0_0_1_n_n rfl rfl rfl rfl rfl rfl none _ x4 _ x5 _ _ p _
    (fun d => pay2_read x0 (ix2 p d)) j'

/-- The body's stored value at row `p` is the row model's output on row `p` of its operands. -/
theorem body_row (x0 : FVec Ideal S4096x128 .bf16) (x1 : FVec Ideal S4096x1 .f32) (x2 x3 : FVec Ideal S128x128 .bf16)
    (x4 : FVec Ideal S128x200 .bf16) (x5 : FVec Ideal S1x200 .f32) (x6 : FVec Ideal S200x256 .bf16) (x7 : FVec Ideal S1x256 .f32)
    (x8 : FVec Ideal S256x200 .bf16) (x9 : FVec Ideal S1x200 .f32) (x10 : FVec Ideal S200x128 .bf16) (x11 : FVec Ideal S1x128 .f32)
    (x12 : FVec Ideal S128x1 .bf16) (x13 : FVec Ideal S1x1 .f32) (p : Fin 4096) (u : Fin 1) :
    k0_pay1 (F := Ideal) (k0_pay3 x0 x2 x3) (k0_pay4 x0 x4 x5 x6 x7) (Scalar.ofBits .f32 0x00000000#32) x8 x9 x10 x11 x12 x13 x1 (ix2 p u)
      = rowOut (fun d => x0 (ix2 p d)) (x1 (ix2 p (0 : Fin 1)))
          (fun d q => x2 (ix2 d q)) (fun d q => x3 (ix2 d q))
          (fun d j => x4 (ix2 d j)) (fun j => x5 (ix2 (0 : Fin 1) j))
          (fun j k => x6 (ix2 j k)) (fun k => x7 (ix2 (0 : Fin 1) k))
          (fun k j => x8 (ix2 k j)) (fun j => x9 (ix2 (0 : Fin 1) j))
          (fun j q => x10 (ix2 j q)) (fun q => x11 (ix2 (0 : Fin 1) q))
          (fun q v => x12 (ix2 q v)) (fun v => x13 (ix2 (0 : Fin 1) v)) := by
  obtain rfl : u = 0 := Subsingleton.elim u 0
  unfold k0_pay1
  refine (out_read _ _ _ _ _).trans ?_
  unfold rowOut deep
  refine congrArg Ideal.logistic (congrArg₂ (· + ·) (congrArg₂ (· + ·) rfl (pay3_row x0 x2 x3 p 0)) ?_)
  refine layer_read dot_S4096x128_S128x1_S4096x1_1_0_0_1_n_n rfl rfl rfl rfl rfl rfl none _ x12 _ x13 _ _ p _ (fun q => ?_) 0
  refine (relu_read _ _ _).trans (congrArg relu ?_)
  refine layer_read dot_S4096x200_S200x128_S4096x128_1_0_0_1_n_n rfl rfl rfl rfl rfl rfl none _ x10 _ x11 _ _ p _ (fun j => ?_) q
  refine (relu_read _ _ _).trans (congrArg relu ?_)
  refine layer_read dot_S4096x256_S256x200_S4096x200_1_0_0_1_n_n rfl rfl rfl rfl rfl rfl none _ x8 _ x9 _ _ p _ (fun k => ?_) j
  refine (relu_read _ _ _).trans (congrArg relu ?_)
  exact pay4_row x0 x4 x5 x6 x7 p k

end Cert.KernelRow

end
-- ==== Proof.KernelRows.lean ====
/-
  The network row by row over the arrays the kernel's windows stage: entry `(r, u)` of the output is `rowOut` of row `r`
  of the embedding array and of the linear-term array, the weights read off their arrays entry by entry and each
  bias `[1, b]` at its one row.
-/
import proofs.«179928_j53961969107175_2_alg».proof.Proof.Gen.KernelIdeal
import proofs.«179928_j53961969107175_2_alg».proof.Proof.RowModel
import Idealize.ShloMosaic.Lib.ValueIdx

noncomputable section

open Idealize.ShloMosaic

namespace Cert.KernelArray

open Cert.KernelIdeal Cert.RowModel Idealize.ShloMosaic.ValueIdx

/-- The network row by row, over the arrays as the windows stage them. -/
def rows (e : S262144x128.Idx → EReal) (l : S262144x1.Idx → EReal) (w2 w3 : S128x128.Idx → EReal)
    (w4 : S128x200.Idx → EReal) (w5 : S1x200.Idx → EReal) (w6 : S200x256.Idx → EReal) (w7 : S1x256.Idx → EReal)
    (w8 : S256x200.Idx → EReal) (w9 : S1x200.Idx → EReal) (w10 : S200x128.Idx → EReal) (w11 : S1x128.Idx → EReal)
    (w12 : S128x1.Idx → EReal) (w13 : S1x1.Idx → EReal) : S262144x1.Idx → EReal :=
  fun i => rowOut (fun d => e (ix2 (i 0) d)) (l (ix2 (i 0) (0 : Fin 1)))
    (fun d q => w2 (ix2 d q)) (fun d q => w3 (ix2 d q))
    (fun d j => w4 (ix2 d j)) (fun j => w5 (ix2 (0 : Fin 1) j))
    (fun j k => w6 (ix2 j k)) (fun k => w7 (ix2 (0 : Fin 1) k))
    (fun k j => w8 (ix2 k j)) (fun j => w9 (ix2 (0 : Fin 1) j))
    (fun j q => w10 (ix2 j q)) (fun q => w11 (ix2 (0 : Fin 1) q))
    (fun q v => w12 (ix2 q v)) (fun v => w13 (ix2 (0 : Fin 1) v))

/-- `rows` read at row `r`: `rowOut` of that row of the embedding array and of the linear-term array. -/
theorem rows_apply (e : S262144x128.Idx → EReal) (l : S262144x1.Idx → EReal) (w2 w3 : S128x128.Idx → EReal)
    (w4 : S128x200.Idx → EReal) (w5 : S1x200.Idx → EReal) (w6 : S200x256.Idx → EReal) (w7 : S1x256.Idx → EReal)
    (w8 : S256x200.Idx → EReal) (w9 : S1x200.Idx → EReal) (w10 : S200x128.Idx → EReal) (w11 : S1x128.Idx → EReal)
    (w12 : S128x1.Idx → EReal) (w13 : S1x1.Idx → EReal) (r : Fin 262144) (u : Fin 1) :
    rows e l w2 w3 w4 w5 w6 w7 w8 w9 w10 w11 w12 w13 (ix2 r u)
      = rowOut (fun d => e (ix2 r d)) (l (ix2 r (0 : Fin 1)))
          (fun d q => w2 (ix2 d q)) (fun d q => w3 (ix2 d q))
          (fun d j => w4 (ix2 d j)) (fun j => w5 (ix2 (0 : Fin 1) j))
          (fun j k => w6 (ix2 j k)) (fun k => w7 (ix2 (0 : Fin 1) k))
          (fun k j => w8 (ix2 k j)) (fun j => w9 (ix2 (0 : Fin 1) j))
          (fun j q => w10 (ix2 j q)) (fun q => w11 (ix2 (0 : Fin 1) q))
          (fun q v => w12 (ix2 q v)) (fun v => w13 (ix2 (0 : Fin 1) v)) := rfl

end Cert.KernelArray

end
-- ==== Proof.KernelArray.lean ====
/-
  The kernel's output array as one function of the arrays its region finds.

  `rows` is the network row by row: entry `(r, u)` of the output is `rowOut` of row `r` of the embedding array and of the
  linear-term array, with the weights read off their arrays (a bias `[1, b]` at its one row). The body's store at a grid
  point is the body's arithmetic of the point's input blocks; read at a row of the block that is `rowOut` of the block's
  row (`body_row`), and the block's row `p` at point `t` is the array's row `4096·t + p` — so what point `t` writes back
  is block `t` of `rows`. The 64 blocks tile the output (row `r` is in block `r / 4096`), so after the run the output
  array is `rows`.
-/
import proofs.«179928_j53961969107175_2_alg».proof.Proof.PatchedKernelIdealValue
import proofs.«179928_j53961969107175_2_alg».proof.Proof.KernelBlocks
import proofs.«179928_j53961969107175_2_alg».proof.Proof.KernelRow
import proofs.«179928_j53961969107175_2_alg».proof.Proof.KernelRows
import proofs.«179928_j53961969107175_2_alg».proof.Proof.RowModel
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelArray

open Cert.KernelIdeal Cert.KernelIdeal.Gen Cert.KernelIdeal.GenP Cert.KernelIdeal.ValueP Cert.KernelBlocks Cert.KernelRow Cert.RowModel
open Idealize.ShloMosaic.ValueIdx

variable (m : (ℓ : Loc nD τ sig) → Buf (Elt Ideal) ℓ) (ρ : Dev nD → PrngReg)

set_option maxHeartbeats 2000000 in
/-- What point `t` writes back is block `t` of `rows` of the arrays the region finds: the body's arithmetic at row `p` of
    the block is `rowOut` of the blocks' rows, the moving blocks' row `p` is the arrays' row `4096·t + p`, and the
    twelve resident blocks are their whole arrays. -/
theorem flushed_eq (c : Dev nD) (t : Fin cfg0.N) :
    (dats m 0 c).flushed 14 t = ((cfg0.win 14).blk t).view.read (Elt Ideal)
      (rows (V m c main_v16) (V m c main_v36) (V m c main_v38) (V m c main_v39) (V m c main_v40) (V m c main_v45) (V m c main_v41) (V m c main_v46) (V m c main_v42) (V m c main_v47) (V m c main_v43) (V m c main_v48) (V m c main_v44) (V m c main_v49)) := by
  rw [flushed14]
  unfold out0_14
  rw [View.canon_unit_zero hz]
  simp only [View.ld_unit_zero (S := S4096x128) hz, View.ld_unit_zero (S := S4096x1) hz, View.ld_unit_zero (S := S128x128) hz, View.ld_unit_zero (S := S128x200) hz, View.ld_unit_zero (S := S1x200) hz, View.ld_unit_zero (S := S200x256) hz, View.ld_unit_zero (S := S1x256) hz, View.ld_unit_zero (S := S256x200) hz, View.ld_unit_zero (S := S200x128) hz, View.ld_unit_zero (S := S1x128) hz, View.ld_unit_zero (S := S128x1) hz, View.ld_unit_zero (S := S1x1) hz]
  funext j
  obtain ⟨p, u, rfl⟩ : ∃ (p : Fin 4096) (u : Fin 1), j = ix2 p u := ⟨j 0, j 1, eq_ix2 j⟩
  rw [View.read_apply, emb14 t p u, rows_apply]
  unfold Pipeline.Window.cut
  have hx : Pipeline.Window.xinj (cfg0.win 14) (grid0.coords t) (ix2 p u) = (ix2 p u : S4096x1.Idx) := rfl
  rw [hx]
  refine (body_row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p u).trans ?_
  have h0 : (fun d : Fin 128 => (iblk m c 0 t : Vec Ideal S4096x128 .bf16) (ix2 p d))
      = fun d : Fin 128 => (V m c main_v16 : S262144x128.Idx → Elt Ideal .bf16) (ix2 (rowOf t p) d) :=
    funext fun d => iblk0_apply m c t p d
  rw [h0, iblk1_apply m c t p (0 : Fin 1), iblk2_eq m c t, iblk3_eq m c t, iblk4_eq m c t, iblk5_eq m c t, iblk6_eq m c t, iblk7_eq m c t, iblk8_eq m c t, iblk9_eq m c t, iblk10_eq m c t, iblk11_eq m c t, iblk12_eq m c t, iblk13_eq m c t]
  exact (cast_eq _ _).symm

/-- An index is in point `t`'s output block iff each coordinate is in the block's range on its axis. -/
theorem mem_blk14 (t : Fin cfg0.N) (i : S262144x1.Idx) :
    i ∈ ((cfg0.win 14).blk t).view.set ↔ ∀ a : Fin 2, win0_14.index t a * S4096x1.size a ≤ (i a).val
      ∧ (i a).val < win0_14.index t a * S4096x1.size a + S4096x1.size a := by
  show i ∈ ((View.whole main_v50).slice (win0_14.rect t)).set ↔ _
  rw [View.set_slice_whole, Rect.mem_set_unit]
  exact Iff.rfl

/-- Every output index is in some point's block: row `r` is in the block of point `r / 4096`. -/
theorem cover14 (i : S262144x1.Idx) :
    ∃ t : Fin cfg0.N, (cfg0.win 14).flush t = true ∧ i ∈ ((cfg0.win 14).blk t).view.set := by
  have hi0 : (i 0).val < 262144 := (i 0).isLt
  have hi1 : (i 1).val < 1 := (i 1).isLt
  have hN : cfg0.N = 64 := N_0
  have ht : (i 0).val / 4096 < cfg0.N := by rw [hN]; omega
  obtain ⟨e0a, e0b, e1a, e1b, e14a, e14b, r2a, r2b, r3a, r3b, r4a, r4b, r5a, r5b, r6a, r6b, r7a, r7b, r8a, r8b, r9a, r9b, r10a, r10b, r11a, r11b, r12a, r12b, r13a, r13b⟩ := idx_facts ⟨(i 0).val / 4096, ht⟩
  refine ⟨⟨(i 0).val / 4096, ht⟩, flush0_14 _, ?_⟩
  rw [mem_blk14]
  intro a
  match a with
  | ⟨0, _⟩ =>
    show win0_14.index ⟨(i 0).val / 4096, ht⟩ (0 : Fin 2) * 4096 ≤ (i 0).val
      ∧ (i 0).val < win0_14.index ⟨(i 0).val / 4096, ht⟩ (0 : Fin 2) * 4096 + 4096
    rw [e14a]
    show (i 0).val / 4096 * 4096 ≤ (i 0).val ∧ (i 0).val < (i 0).val / 4096 * 4096 + 4096
    omega
  | ⟨1, _⟩ =>
    show win0_14.index ⟨(i 0).val / 4096, ht⟩ (1 : Fin 2) * 1 ≤ (i 1).val
      ∧ (i 1).val < win0_14.index ⟨(i 0).val / 4096, ht⟩ (1 : Fin 2) * 1 + 1
    rw [e14b]
    omega

/-- After the run the output array is `rows` of the arrays the region finds. -/
theorem final14 (c : Dev nD) :
    (dats m 0 c).arrAt 14 cfg0.N = rows (V m c main_v16) (V m c main_v36) (V m c main_v38) (V m c main_v39) (V m c main_v40) (V m c main_v45) (V m c main_v41) (V m c main_v46) (V m c main_v42) (V m c main_v47) (V m c main_v43) (V m c main_v48) (V m c main_v44) (V m c main_v49) :=
  (dats m 0 c).arrAt_eq_of_cover 14 _ (fun t _ => flushed_eq m c t) cover14

end Cert.KernelArray

end
-- ==== Proof.KernelHost.lean ====
/-
  The arrays the kernel's region finds, as functions of @main's arguments.

  Before the region @main computes, with host operations, the array each window stages. At the exact extended reals a
  change of float format is the identity, so:
    • the six weight windows hold the weight arguments themselves (a cast to a narrower format of the argument), and the
      squared interaction matrix holds the entrywise square of the interaction matrix;
    • the five bias windows hold the bias arguments recast from `[b]` to `[1, b]`: entry `(0, j)` is entry `j`;
    • the embedding window holds the two gathered tables joined along the columns, and the linear-term window the
      two gathered linear weights plus the linear bias, kept as a column. These two are the SAME host operations the
      reference applies to the same arguments (the reference gathers from the tables as they are, the kernel from
      their casts, which are the tables), so they are stated as the reference's own stages and never opened.
-/
import proofs.«179928_j53961969107175_2_alg».proof.Proof.PatchedKernelIdealFrame
import proofs.«179928_j53961969107175_2_alg».proof.Proof.Gen.ReferenceIdeal.Read
import Idealize.ShloMosaic.Lib.StableHlo.Run
import Idealize.ShloMosaic.Lib.ValueIdx
import Idealize.ShloMosaic.Lib.ValueLayout

noncomputable section

open Idealize.ShloMosaic Idealize.ShloMosaic.TcCoe Idealize.SL.Sem Idealize.ShloMosaic.StableHlo

namespace Cert.KernelHost

open Cert.KernelIdeal Cert.KernelIdeal.Gen Cert.KernelIdeal.GenP Idealize.ShloMosaic.ValueIdx

variable (m : (ℓ : Loc nD τ sig) → Buf (Elt Ideal) ℓ)

/-- The window's array is the argument: its cast to the narrower format changes nothing at the exact values. -/
theorem main_v38_eq (c : Dev nD) :
    (V m c main_v38 : S128x128.Idx → EReal) = (m ((c : Thread nD τ).loc main_arg6) : S128x128.Idx → EReal) := by
  show StableHlo.after hostOps0 (fun b => m (c, b)) (Proc.devRef .tc main_v38) = _
  after_results_simp
  rfl

/-- The window's array is the argument: its cast to the narrower format changes nothing at the exact values. -/
theorem main_v40_eq (c : Dev nD) :
    (V m c main_v40 : S128x200.Idx → EReal) = (m ((c : Thread nD τ).loc main_arg7) : S128x200.Idx → EReal) := by
  show StableHlo.after hostOps0 (fun b => m (c, b)) (Proc.devRef .tc main_v40) = _
  after_results_simp
  rfl

/-- The window's array is the argument: its cast to the narrower format changes nothing at the exact values. -/
theorem main_v41_eq (c : Dev nD) :
    (V m c main_v41 : S200x256.Idx → EReal) = (m ((c : Thread nD τ).loc main_arg9) : S200x256.Idx → EReal) := by
  show StableHlo.after hostOps0 (fun b => m (c, b)) (Proc.devRef .tc main_v41) = _
  after_results_simp
  rfl

/-- The window's array is the argument: its cast to the narrower format changes nothing at the exact values. -/
theorem main_v42_eq (c : Dev nD) :
    (V m c main_v42 : S256x200.Idx → EReal) = (m ((c : Thread nD τ).loc main_arg11) : S256x200.Idx → EReal) := by
  show StableHlo.after hostOps0 (fun b => m (c, b)) (Proc.devRef .tc main_v42) = _
  after_results_simp
  rfl

/-- The window's array is the argument: its cast to the narrower format changes nothing at the exact values. -/
theorem main_v43_eq (c : Dev nD) :
    (V m c main_v43 : S200x128.Idx → EReal) = (m ((c : Thread nD τ).loc main_arg13) : S200x128.Idx → EReal) := by
  show StableHlo.after hostOps0 (fun b => m (c, b)) (Proc.devRef .tc main_v43) = _
  after_results_simp
  rfl

/-- The window's array is the argument: its cast to the narrower format changes nothing at the exact values. -/
theorem main_v44_eq (c : Dev nD) :
    (V m c main_v44 : S128x1.Idx → EReal) = (m ((c : Thread nD τ).loc main_arg15) : S128x1.Idx → EReal) := by
  show StableHlo.after hostOps0 (fun b => m (c, b)) (Proc.devRef .tc main_v44) = _
  after_results_simp
  rfl

/-- The squared interaction matrix is the entrywise square of the interaction matrix. -/
theorem main_v39_eq (c : Dev nD) :
    (V m c main_v39 : S128x128.Idx → EReal)
      = mulf (F := Ideal) (s := S128x128) (φ := .f32) (m ((c : Thread nD τ).loc main_arg6)) (m ((c : Thread nD τ).loc main_arg6)) := by
  show StableHlo.after hostOps0 (fun b => m (c, b)) (Proc.devRef .tc main_v39) = _
  after_results_simp
  rfl

/-- The bias recast from `[200]` to `[1, 200]` reads, at `(0, j)`, the bias at `j`. -/
theorem main_v45_apply (c : Dev nD) (u : Fin 1) (j : Fin 200) :
    (V m c main_v45 : S1x200.Idx → EReal) (ix2 u j) = (m ((c : Thread nD τ).loc main_arg8) : S200.Idx → EReal) (ix1 j) := by
  have e : (V m c main_v45 : S1x200.Idx → EReal)
      = shapeCast S1x200 (m ((c : Thread nD τ).loc main_arg8) : S200.Idx → EReal) shapeCasts_S200_S1x200 := by
    show StableHlo.after hostOps0 (fun b => m (c, b)) (Proc.devRef .tc main_v45) = _
    after_results_simp
    rfl
  rw [e]
  exact shapeCast_a_1a_apply _ _ u j

/-- The bias recast from `[256]` to `[1, 256]` reads, at `(0, j)`, the bias at `j`. -/
theorem main_v46_apply (c : Dev nD) (u : Fin 1) (j : Fin 256) :
    (V m c main_v46 : S1x256.Idx → EReal) (ix2 u j) = (m ((c : Thread nD τ).loc main_arg10) : S256.Idx → EReal) (ix1 j) := by
  have e : (V m c main_v46 : S1x256.Idx → EReal)
      = shapeCast S1x256 (m ((c : Thread nD τ).loc main_arg10) : S256.Idx → EReal) shapeCasts_S256_S1x256 := by
    show StableHlo.after hostOps0 (fun b => m (c, b)) (Proc.devRef .tc main_v46) = _
    after_results_simp
    rfl
  rw [e]
  exact shapeCast_a_1a_apply _ _ u j

/-- The bias recast from `[200]` to `[1, 200]` reads, at `(0, j)`, the bias at `j`. -/
theorem main_v47_apply (c : Dev nD) (u : Fin 1) (j : Fin 200) :
    (V m c main_v47 : S1x200.Idx → EReal) (ix2 u j) = (m ((c : Thread nD τ).loc main_arg12) : S200.Idx → EReal) (ix1 j) := by
  have e : (V m c main_v47 : S1x200.Idx → EReal)
      = shapeCast S1x200 (m ((c : Thread nD τ).loc main_arg12) : S200.Idx → EReal) shapeCasts_S200_S1x200 := by
    show StableHlo.after hostOps0 (fun b => m (c, b)) (Proc.devRef .tc main_v47) = _
    after_results_simp
    rfl
  rw [e]
  exact shapeCast_a_1a_apply _ _ u j

/-- The bias recast from `[128]` to `[1, 128]` reads, at `(0, j)`, the bias at `j`. -/
theorem main_v48_apply (c : Dev nD) (u : Fin 1) (j : Fin 128) :
    (V m c main_v48 : S1x128.Idx → EReal) (ix2 u j) = (m ((c : Thread nD τ).loc main_arg14) : S128.Idx → EReal) (ix1 j) := by
  have e : (V m c main_v48 : S1x128.Idx → EReal)
      = shapeCast S1x128 (m ((c : Thread nD τ).loc main_arg14) : S128.Idx → EReal) shapeCasts_S128_S1x128 := by
    show StableHlo.after hostOps0 (fun b => m (c, b)) (Proc.devRef .tc main_v48) = _
    after_results_simp
    rfl
  rw [e]
  exact shapeCast_a_1a_apply _ _ u j

/-- The bias recast from `[1]` to `[1, 1]` reads, at `(0, j)`, the bias at `j`. -/
theorem main_v49_apply (c : Dev nD) (u : Fin 1) (j : Fin 1) :
    (V m c main_v49 : S1x1.Idx → EReal) (ix2 u j) = (m ((c : Thread nD τ).loc main_arg16) : S1.Idx → EReal) (ix1 j) := by
  have e : (V m c main_v49 : S1x1.Idx → EReal)
      = shapeCast S1x1 (m ((c : Thread nD τ).loc main_arg16) : S1.Idx → EReal) shapeCasts_S1_S1x1 := by
    show StableHlo.after hostOps0 (fun b => m (c, b)) (Proc.devRef .tc main_v49) = _
    after_results_simp
    rfl
  rw [e]
  exact shapeCast_a_1a_apply _ _ u j

/-- The embedding window's array is the reference's embedding stage of the same arguments. -/
theorem main_v16_eq (c : Dev nD) :
    (V m c main_v16 : S262144x128.Idx → EReal)
      = Cert.ReferenceIdeal.Read.val_main_v14 (F := Ideal) (m ((c : Thread nD τ).loc main_arg0)) (m ((c : Thread nD τ).loc main_arg1))
          (m ((c : Thread nD τ).loc main_arg2)) (m ((c : Thread nD τ).loc main_arg3)) := by
  show StableHlo.after hostOps0 (fun b => m (c, b)) (Proc.devRef .tc main_v16) = _
  after_results_simp
  rfl

/-- The linear-term window's array is the reference's linear-term stage of the same arguments. -/
theorem main_v36_eq (c : Dev nD) :
    (V m c main_v36 : S262144x1.Idx → EReal)
      = Cert.ReferenceIdeal.Read.val_main_v34 (F := Ideal) (m ((c : Thread nD τ).loc main_arg0)) (m ((c : Thread nD τ).loc main_arg1))
          (m ((c : Thread nD τ).loc main_arg4)) (m ((c : Thread nD τ).loc main_arg5)) := by
  show StableHlo.after hostOps0 (fun b => m (c, b)) (Proc.devRef .tc main_v36) = _
  after_results_simp
  rfl

end Cert.KernelHost

end
-- ==== Proof.LibHostRead.lean ====
/-
  Reads of host operations at an index, at the exact extended-real values, for rank-2 arrays: a `dot_general`
  that contracts the second axis of its left operand with the first axis of its right operand is, at entry
  `(p, q)`, the sum over the contracted coordinate of the products; a bias of length `b` broadcast first to a row
  `[1, b]` and then down `a` rows reads its own entry `q`; a scalar broadcast to any shape reads the scalar; a
  slice of `w` columns starting at column `o` reads column `o + q`; and the word of the float one is the real one.
-/
import Idealize.ShloMosaic.PureOps.Ideal.Laws
import Idealize.ShloMosaic.Lib.Pipeline.Value
import Idealize.ShloMosaic.Lib.ValueIdx

noncomputable section

open scoped BigOperators

namespace Cert.HostRead

open Idealize.ShloMosaic Idealize.ShloMosaic.ValueIdx

/-- A host product contracting axis 1 of the left operand with axis 0 of the right one, read at `(p, q)`. -/
theorem dotGeneral_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![k, b]⟩ φ₂)
    (p : Fin a) (q : Fin b) :
    Host.dotGeneral D prec x w (ix2 p q) = ∑ d : Fin k, x (ix2 p d) * w (ix2 d q) := by
  obtain ⟨lc, rc, ln, rn, lb, rb, wf⟩ := D
  dsimp only at hlc hrc hln hrn hlb hrb
  subst hlc hrc hln hrn hlb hrb
  refine (Ideal.dotGeneral_apply _ prec .single x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => exact (DotDims.rhsIdx_val_of_single _ rfl _ _).trans (contrEquiv1_symm_val _ k rfl rfl d)
    | ⟨1, _⟩ => rfl

/-- A bias broadcast to a row and then down the rows reads its own entry. -/
theorem bias_rows_apply {α : Type} {a b : ℕ} (h1 : (⟨1, ![b]⟩ : Shape).BroadcastsInDim ⟨2, ![1, b]⟩ ![1])
    (h2 : (⟨2, ![1, b]⟩ : Shape).BroadcastsInDim ⟨2, ![a, b]⟩ ![0, 1]) (x : (⟨1, ![b]⟩ : Shape).Idx → α)
    (p : Fin a) (q : Fin b) :
    broadcastInDim ⟨2, ![a, b]⟩ ![0, 1] h2 (broadcastInDim ⟨2, ![1, b]⟩ ![1] h1 x) (ix2 p q) = x (ix1 q) := by
  unfold broadcastInDim
  refine congrArg x (funext fun ax => Fin.ext ?_)
  match ax with
  | ⟨0, _⟩ =>
    by_cases hb : b = 1
    · subst hb; simp [ix1, ix2]
    · simp [ix1, ix2, hb]; rfl

/-- A scalar broadcast to any shape reads the scalar. -/
theorem scalar_bcast_apply {α : Type} {t : Shape} (h : (⟨0, ![]⟩ : Shape).BroadcastsInDim t ![])
    (x : (⟨0, ![]⟩ : Shape).Idx → α) (j : t.Idx) : broadcastInDim t ![] h x j = x ix0 := by
  unfold broadcastInDim
  exact congrArg x (funext fun ax => ax.elim0)

/-- A slice of `w` columns from column `o` on, all rows, reads column `o + q`. -/
theorem cols_apply {α : Type} {a n w : ℕ} (o : ℕ) (h : (⟨2, ![a, n]⟩ : Shape).Slices ![0, o] ⟨2, ![a, w]⟩)
    (x : (⟨2, ![a, n]⟩ : Shape).Idx → α) (p : Fin a) (q : Fin w) (ho : o + q.val < n) :
    extractStridedSlice ⟨2, ![a, w]⟩ ![0, o] x h (ix2 p q) = x (ix2 p ⟨o + q.val, ho⟩) := by
  refine extractStridedSlice_apply ![0, o] x h (ix2 p q) (ix2 p ⟨o + q.val, ho⟩) fun ax => ?_
  match ax with
  | ⟨0, _⟩ => show p.val = 0 + p.val; omega
  | ⟨1, _⟩ => rfl

/-- The word of the float one denotes the real one. -/
theorem ofBits_one_f32 : Ideal.ofBits .f32 0x3F800000#32 = 1 := by
  simp [Ideal.ofBits, Ideal.ieee, -EReal.coe_mul]
  norm_num

end Cert.HostRead

end
-- ==== Proof.RefRow.lean ====
/-
  The reference network read at a row.

  The reference computes, from the embedding array `emb` (262144 rows of 128 entries) and the linear-term column
  `lin`, the array `1 / (1 + exp (-((lin + cross) + dnn)))`. Here `cross` is one half of the mean over the 128
  columns `q` of `(emb · ck)² − (emb ∘ emb) · (ck ∘ ck)`, summed from the float zero, and `dnn` is the result of four
  layers `y ↦ max (y · W + b) 0` and a last layer `y ↦ y · W + b`, every bias broadcast down the rows and every zero a
  broadcast scalar. Every operation acts on each row by itself: a product of arrays reads, at row `r`, only row `r` of
  its left operand. So the entry of the result in row `r` is the row model's output `rowOut` of row `r` of `emb` and
  entry `r` of `lin`. The proof follows the program: the interaction column, then one statement per layer, each layer
  read from the previous one at the same row, then the sum of the three terms and the logistic function, which is by
  definition `1 / (1 + exp (-x))` with the exact quotient.
-/
import proofs.«179928_j53961969107175_2_alg».proof.Proof.Gen.ReferenceIdeal.Read
import proofs.«179928_j53961969107175_2_alg».proof.Proof.RowModel
import proofs.«179928_j53961969107175_2_alg».proof.Proof.LibHostRead
import Idealize.ShloMosaic.PureOps.Ideal.Laws
import Idealize.ShloMosaic.Lib.ValueIdx
import Idealize.ShloMosaic.Lib.Pipeline.Value

noncomputable section

open scoped BigOperators

namespace Cert.RefRow

open Cert.ReferenceIdeal Cert.ReferenceIdeal.Gen Cert.ReferenceIdeal.Read Cert.RowModel Idealize.ShloMosaic
  Idealize.ShloMosaic.ValueIdx

/-! ### A layer read at an entry -/

/-- An affine layer read at an entry: the product of the activations with the weights, plus a bias broadcast first to a
    row and then down the rows, is at `(p, q)` the sum over the contracted coordinate plus the bias's entry `q`. -/
theorem affine_read {a k b : ℕ} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (h1 : (⟨1, ![b]⟩ : Shape).BroadcastsInDim ⟨2, ![1, b]⟩ ![1])
    (h2 : (⟨2, ![1, b]⟩ : Shape).BroadcastsInDim ⟨2, ![a, b]⟩ ![0, 1])
    (X : FVec Ideal ⟨2, ![a, k]⟩ .f32) (W : FVec Ideal ⟨2, ![k, b]⟩ .f32) (bias : FVec Ideal ⟨1, ![b]⟩ .f32)
    (p : Fin a) (q : Fin b) :
    addf (Host.dotGeneral D none X W)
        (broadcastInDim ⟨2, ![a, b]⟩ ![0, 1] h2 (broadcastInDim ⟨2, ![1, b]⟩ ![1] h1 bias)) (ix2 p q)
      = affine (fun d => X (ix2 p d)) (fun d q => W (ix2 d q)) (fun q => bias (ix1 q)) q := by
  unfold affine
  exact congrArg₂ (· + ·) (Cert.HostRead.dotGeneral_ix2_apply D hlc hrc hln hrn hlb hrb none X W p q)
    (Cert.HostRead.bias_rows_apply h1 h2 bias p q)

/-- A rectified affine layer read at an entry: the maximum of the affine layer with a broadcast scalar whose value is
    the float zero is the rectifier of the affine map's entry. -/
theorem relu_affine_read {a k b : ℕ} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (h1 : (⟨1, ![b]⟩ : Shape).BroadcastsInDim ⟨2, ![1, b]⟩ ![1])
    (h2 : (⟨2, ![1, b]⟩ : Shape).BroadcastsInDim ⟨2, ![a, b]⟩ ![0, 1])
    (hz : (⟨0, ![]⟩ : Shape).BroadcastsInDim ⟨2, ![a, b]⟩ ![])
    (X : FVec Ideal ⟨2, ![a, k]⟩ .f32) (W : FVec Ideal ⟨2, ![k, b]⟩ .f32) (bias : FVec Ideal ⟨1, ![b]⟩ .f32)
    (c : FVec Ideal ⟨0, ![]⟩ .f32) (hc : c ix0 = Ideal.ofBits .f32 0x00000000#32)
    (p : Fin a) (q : Fin b) :
    maximumf (addf (Host.dotGeneral D none X W)
        (broadcastInDim ⟨2, ![a, b]⟩ ![0, 1] h2 (broadcastInDim ⟨2, ![1, b]⟩ ![1] h1 bias)))
        (broadcastInDim ⟨2, ![a, b]⟩ ![] hz c) (ix2 p q)
      = relu (affine (fun d => X (ix2 p d)) (fun d q => W (ix2 d q)) (fun q => bias (ix1 q)) q) := by
  unfold relu
  exact congrArg₂ max (affine_read D hlc hrc hln hrn hlb hrb h1 h2 X W bias p q)
    ((Cert.HostRead.scalar_bcast_apply hz c (ix2 p q)).trans hc)

/-! ### The interaction column -/

/-- The summand of the interaction term at `(r, q)`: the square of `Σ_d emb_{r,d} · ck_{d,q}` minus
    `Σ_d emb_{r,d}² · ck_{d,q}²`. -/
theorem v40_row (x0 x1 : (⟨S262144, .i32⟩ : BufTy).Contents (Elt Ideal)) (x2 x3 : (⟨S100000x64, .f32⟩ : BufTy).Contents (Elt Ideal)) (x6 : (⟨S128x128, .f32⟩ : BufTy).Contents (Elt Ideal)) (r : Fin 262144) (q : Fin 128) :
    val_main_v40 (F := Ideal) x0 x1 x2 x3 x6 (ix2 r q)
      = (∑ d : Fin 128, val_main_v14 (F := Ideal) x0 x1 x2 x3 (ix2 r d) * x6 (ix2 d q)) * (∑ d : Fin 128, val_main_v14 (F := Ideal) x0 x1 x2 x3 (ix2 r d) * x6 (ix2 d q))
        - ∑ d : Fin 128, (val_main_v14 (F := Ideal) x0 x1 x2 x3 (ix2 r d) * val_main_v14 (F := Ideal) x0 x1 x2 x3 (ix2 r d)) * (x6 (ix2 d q) * x6 (ix2 d q)) := by
  unfold val_main_v40 val_main_v39 val_main_v38 val_main_v35 val_main_v36 val_main_v37
  generalize val_main_v14 (F := Ideal) x0 x1 x2 x3 = e
  have h35 := Cert.HostRead.dotGeneral_ix2_apply (φ₁ := .f32) (φ₂ := .f32)
    dot_S262144x128_S128x128_S262144x128_1_0_0_1_n_n rfl rfl rfl rfl rfl rfl none e x6 r q
  have h38 := Cert.HostRead.dotGeneral_ix2_apply (φ₁ := .f32) (φ₂ := .f32)
    dot_S262144x128_S128x128_S262144x128_1_0_0_1_n_n rfl rfl rfl rfl rfl rfl none
    (mulf (F := Ideal) (φ := .f32) e e) (mulf (F := Ideal) (φ := .f32) x6 x6) r q
  exact congrArg₂ (· - ·) (congrArg₂ (· * ·) h35 h35) h38

/-- The interaction column at row `r` is the row model's interaction term of row `r` of the embedding: the sum over
    the columns starts from the float zero, which is the real zero. -/
theorem v46_row (x0 x1 : (⟨S262144, .i32⟩ : BufTy).Contents (Elt Ideal)) (x2 x3 : (⟨S100000x64, .f32⟩ : BufTy).Contents (Elt Ideal)) (x6 : (⟨S128x128, .f32⟩ : BufTy).Contents (Elt Ideal)) (r : Fin 262144) (u : Fin 1) :
    val_main_v46 (F := Ideal) x0 x1 x2 x3 x6 (ix2 r u)
      = cross (fun d => val_main_v14 (F := Ideal) x0 x1 x2 x3 (ix2 r d)) (fun d q => x6 (ix2 d q)) (fun d q => x6 (ix2 d q) * x6 (ix2 d q)) := by
  rw [val_main_v46_apply, val_main_v45_apply, val_main_cst_9_apply, val_main_v44_apply, val_main_v43_apply,
    val_main_cst_8_apply, val_main_v42_apply, val_main_v41_apply, val_main_cst_apply]
  unfold cross interaction
  simp only [Ideal.mulf_def, Ideal.hostDivf_def, Ideal.ofBits_def]
  rw [Ideal.ofBits_zero_f32, zero_add]
  refine congrArg (fun s => Ideal.ofBits .f32 0x3F000000#32 * Ideal.div s (Ideal.ofBits .f32 0x43000000#32))
    (Finset.sum_congr rfl fun q _ => ?_)
  have hi : idx_main_v41 (idx_main_v42 (ix2 r u)) q = ix2 r q :=
    funext fun a => Fin.ext (by match a with | ⟨0, _⟩ => rfl | ⟨1, _⟩ => rfl)
  rw [hi]
  exact v40_row x0 x1 x2 x3 x6 r q

/-! ### The deep term, layer by layer -/

/-- The first layer at `(r, j)`, from row `r` of the embedding. -/
theorem v51_row (x0 x1 : (⟨S262144, .i32⟩ : BufTy).Contents (Elt Ideal)) (x2 x3 : (⟨S100000x64, .f32⟩ : BufTy).Contents (Elt Ideal)) (x7 : (⟨S128x200, .f32⟩ : BufTy).Contents (Elt Ideal)) (x8 : (⟨S200, .f32⟩ : BufTy).Contents (Elt Ideal)) (r : Fin 262144) (j : Fin 200) :
    val_main_v51 (F := Ideal) x0 x1 x2 x3 x7 x8 (ix2 r j)
      = relu (affine (fun d => val_main_v14 (F := Ideal) x0 x1 x2 x3 (ix2 r d)) (fun d j => x7 (ix2 d j)) (fun j => x8 (ix1 j)) j) := by
  unfold val_main_v51 val_main_v50 val_main_v47 val_main_v49 val_main_v48 val_main_call0_v0
  generalize val_main_v14 (F := Ideal) x0 x1 x2 x3 = e
  exact relu_affine_read dot_S262144x128_S128x200_S262144x200_1_0_0_1_n_n rfl rfl rfl rfl rfl rfl
    bcast_S200_S1x200_1 bcast_S1x200_S262144x200_0_1 bcast_S_S262144x200 e x7 x8 (val_main_call0_cst (F := Ideal)) rfl r j

/-- The second layer at `(r, k)`, from row `r` of the first. -/
theorem v56_row (x0 x1 : (⟨S262144, .i32⟩ : BufTy).Contents (Elt Ideal)) (x2 x3 : (⟨S100000x64, .f32⟩ : BufTy).Contents (Elt Ideal)) (x7 : (⟨S128x200, .f32⟩ : BufTy).Contents (Elt Ideal)) (x8 : (⟨S200, .f32⟩ : BufTy).Contents (Elt Ideal)) (x9 : (⟨S200x256, .f32⟩ : BufTy).Contents (Elt Ideal)) (x10 : (⟨S256, .f32⟩ : BufTy).Contents (Elt Ideal)) (r : Fin 262144) (k : Fin 256) :
    val_main_v56 (F := Ideal) x0 x1 x2 x3 x7 x8 x9 x10 (ix2 r k)
      = relu (affine (fun j => val_main_v51 (F := Ideal) x0 x1 x2 x3 x7 x8 (ix2 r j)) (fun j k => x9 (ix2 j k))
          (fun k => x10 (ix1 k)) k) := by
  unfold val_main_v56 val_main_v55 val_main_v52 val_main_v54 val_main_v53 val_main_call1_v0
  generalize val_main_v51 (F := Ideal) x0 x1 x2 x3 x7 x8 = e
  exact relu_affine_read dot_S262144x200_S200x256_S262144x256_1_0_0_1_n_n rfl rfl rfl rfl rfl rfl
    bcast_S256_S1x256_1 bcast_S1x256_S262144x256_0_1 bcast_S_S262144x256 e x9 x10 (val_main_call1_cst (F := Ideal)) rfl r k

/-- The third layer at `(r, j)`, from row `r` of the second. -/
theorem v61_row (x0 x1 : (⟨S262144, .i32⟩ : BufTy).Contents (Elt Ideal)) (x2 x3 : (⟨S100000x64, .f32⟩ : BufTy).Contents (Elt Ideal)) (x7 : (⟨S128x200, .f32⟩ : BufTy).Contents (Elt Ideal)) (x8 : (⟨S200, .f32⟩ : BufTy).Contents (Elt Ideal)) (x9 : (⟨S200x256, .f32⟩ : BufTy).Contents (Elt Ideal)) (x10 : (⟨S256, .f32⟩ : BufTy).Contents (Elt Ideal)) (x11 : (⟨S256x200, .f32⟩ : BufTy).Contents (Elt Ideal)) (x12 : (⟨S200, .f32⟩ : BufTy).Contents (Elt Ideal)) (r : Fin 262144) (j : Fin 200) :
    val_main_v61 (F := Ideal) x0 x1 x2 x3 x7 x8 x9 x10 x11 x12 (ix2 r j)
      = relu (affine (fun k => val_main_v56 (F := Ideal) x0 x1 x2 x3 x7 x8 x9 x10 (ix2 r k)) (fun k j => x11 (ix2 k j))
          (fun j => x12 (ix1 j)) j) := by
  unfold val_main_v61 val_main_v60 val_main_v57 val_main_v59 val_main_v58 val_main_call2_v0
  generalize val_main_v56 (F := Ideal) x0 x1 x2 x3 x7 x8 x9 x10 = e
  exact relu_affine_read dot_S262144x256_S256x200_S262144x200_1_0_0_1_n_n rfl rfl rfl rfl rfl rfl
    bcast_S200_S1x200_1 bcast_S1x200_S262144x200_0_1 bcast_S_S262144x200 e x11 x12 (val_main_call2_cst (F := Ideal)) rfl r j

/-- The fourth layer at `(r, q)`, from row `r` of the third. -/
theorem v66_row (x0 x1 : (⟨S262144, .i32⟩ : BufTy).Contents (Elt Ideal)) (x2 x3 : (⟨S100000x64, .f32⟩ : BufTy).Contents (Elt Ideal)) (x7 : (⟨S128x200, .f32⟩ : BufTy).Contents (Elt Ideal)) (x8 : (⟨S200, .f32⟩ : BufTy).Contents (Elt Ideal)) (x9 : (⟨S200x256, .f32⟩ : BufTy).Contents (Elt Ideal)) (x10 : (⟨S256, .f32⟩ : BufTy).Contents (Elt Ideal)) (x11 : (⟨S256x200, .f32⟩ : BufTy).Contents (Elt Ideal)) (x12 : (⟨S200, .f32⟩ : BufTy).Contents (Elt Ideal)) (x13 : (⟨S200x128, .f32⟩ : BufTy).Contents (Elt Ideal)) (x14 : (⟨S128, .f32⟩ : BufTy).Contents (Elt Ideal))
    (r : Fin 262144) (q : Fin 128) :
    val_main_v66 (F := Ideal) x0 x1 x2 x3 x7 x8 x9 x10 x11 x12 x13 x14 (ix2 r q)
      = relu (affine (fun j => val_main_v61 (F := Ideal) x0 x1 x2 x3 x7 x8 x9 x10 x11 x12 (ix2 r j))
          (fun j q => x13 (ix2 j q)) (fun q => x14 (ix1 q)) q) := by
  unfold val_main_v66 val_main_v65 val_main_v62 val_main_v64 val_main_v63 val_main_call3_v0
  generalize val_main_v61 (F := Ideal) x0 x1 x2 x3 x7 x8 x9 x10 x11 x12 = e
  exact relu_affine_read dot_S262144x200_S200x128_S262144x128_1_0_0_1_n_n rfl rfl rfl rfl rfl rfl
    bcast_S128_S1x128_1 bcast_S1x128_S262144x128_0_1 bcast_S_S262144x128 e x13 x14 (val_main_call3_cst (F := Ideal)) rfl r q

/-- The last layer at `(r, u)`, from row `r` of the fourth: affine, with no rectifier. -/
theorem v70_row (x0 x1 : (⟨S262144, .i32⟩ : BufTy).Contents (Elt Ideal)) (x2 x3 : (⟨S100000x64, .f32⟩ : BufTy).Contents (Elt Ideal)) (x7 : (⟨S128x200, .f32⟩ : BufTy).Contents (Elt Ideal)) (x8 : (⟨S200, .f32⟩ : BufTy).Contents (Elt Ideal)) (x9 : (⟨S200x256, .f32⟩ : BufTy).Contents (Elt Ideal)) (x10 : (⟨S256, .f32⟩ : BufTy).Contents (Elt Ideal)) (x11 : (⟨S256x200, .f32⟩ : BufTy).Contents (Elt Ideal)) (x12 : (⟨S200, .f32⟩ : BufTy).Contents (Elt Ideal)) (x13 : (⟨S200x128, .f32⟩ : BufTy).Contents (Elt Ideal)) (x14 : (⟨S128, .f32⟩ : BufTy).Contents (Elt Ideal)) (x15 : (⟨S128x1, .f32⟩ : BufTy).Contents (Elt Ideal)) (x16 : (⟨S1, .f32⟩ : BufTy).Contents (Elt Ideal))
    (r : Fin 262144) (u : Fin 1) :
    val_main_v70 (F := Ideal) x0 x1 x2 x3 x7 x8 x9 x10 x11 x12 x13 x14 x15 x16 (ix2 r u)
      = affine (fun q => val_main_v66 (F := Ideal) x0 x1 x2 x3 x7 x8 x9 x10 x11 x12 x13 x14 (ix2 r q))
          (fun q v => x15 (ix2 q v)) (fun v => x16 (ix1 v)) u := by
  unfold val_main_v70 val_main_v67 val_main_v69 val_main_v68
  generalize val_main_v66 (F := Ideal) x0 x1 x2 x3 x7 x8 x9 x10 x11 x12 x13 x14 = e
  exact affine_read dot_S262144x128_S128x1_S262144x1_1_0_0_1_n_n rfl rfl rfl rfl rfl rfl
    bcast_S1_S1x1_1 bcast_S1x1_S262144x1_0_1 e x15 x16 r u

/-- The deep column at row `r` is the row model's deep term of row `r` of the embedding: the five layers composed. -/
theorem deep_row (x0 x1 : (⟨S262144, .i32⟩ : BufTy).Contents (Elt Ideal)) (x2 x3 : (⟨S100000x64, .f32⟩ : BufTy).Contents (Elt Ideal)) (x7 : (⟨S128x200, .f32⟩ : BufTy).Contents (Elt Ideal)) (x8 : (⟨S200, .f32⟩ : BufTy).Contents (Elt Ideal)) (x9 : (⟨S200x256, .f32⟩ : BufTy).Contents (Elt Ideal)) (x10 : (⟨S256, .f32⟩ : BufTy).Contents (Elt Ideal)) (x11 : (⟨S256x200, .f32⟩ : BufTy).Contents (Elt Ideal)) (x12 : (⟨S200, .f32⟩ : BufTy).Contents (Elt Ideal)) (x13 : (⟨S200x128, .f32⟩ : BufTy).Contents (Elt Ideal)) (x14 : (⟨S128, .f32⟩ : BufTy).Contents (Elt Ideal)) (x15 : (⟨S128x1, .f32⟩ : BufTy).Contents (Elt Ideal)) (x16 : (⟨S1, .f32⟩ : BufTy).Contents (Elt Ideal))
    (r : Fin 262144) :
    val_main_v70 (F := Ideal) x0 x1 x2 x3 x7 x8 x9 x10 x11 x12 x13 x14 x15 x16 (ix2 r (0 : Fin 1))
      = deep (fun d => val_main_v14 (F := Ideal) x0 x1 x2 x3 (ix2 r d))
          (fun d j => x7 (ix2 d j)) (fun j => x8 (ix1 j))
          (fun j k => x9 (ix2 j k)) (fun k => x10 (ix1 k))
          (fun k j => x11 (ix2 k j)) (fun j => x12 (ix1 j))
          (fun j q => x13 (ix2 j q)) (fun q => x14 (ix1 q))
          (fun q v => x15 (ix2 q v)) (fun v => x16 (ix1 v)) := by
  unfold deep
  rw [v70_row]
  refine congrArg (fun f => affine f (fun q v => x15 (ix2 q v)) (fun v => x16 (ix1 v)) 0) (funext fun q => ?_)
  rw [v66_row]
  refine congrArg (fun f => relu (affine f (fun j q => x13 (ix2 j q)) (fun q => x14 (ix1 q)) q)) (funext fun j => ?_)
  rw [v61_row]
  refine congrArg (fun f => relu (affine f (fun k j => x11 (ix2 k j)) (fun j => x12 (ix1 j)) j)) (funext fun k => ?_)
  rw [v56_row]
  refine congrArg (fun f => relu (affine f (fun j k => x9 (ix2 j k)) (fun k => x10 (ix1 k)) k)) (funext fun j' => ?_)
  exact v51_row x0 x1 x2 x3 x7 x8 r j'

/-! ### The result -/

/-- The quotient of the broadcast one by the broadcast one plus the exponential of the negated argument is the logistic
    function of the argument: the word of the float one is the real one. -/
theorem logistic_read (Y : FVec Ideal S262144x1 .f32) (i : S262144x1.Idx) :
    Host.divf (val_main_v77 (F := Ideal)) (addf (val_main_v75 (F := Ideal)) (Host.exp (Host.negf Y))) i
      = Ideal.logistic (Y i) := by
  have h77 : val_main_v77 (F := Ideal) i = 1 := by
    rw [val_main_v77_apply, val_main_cst_11_apply]; exact Cert.HostRead.ofBits_one_f32
  have h75 : val_main_v75 (F := Ideal) i = 1 := by
    rw [val_main_v75_apply, val_main_cst_10_apply]; exact Cert.HostRead.ofBits_one_f32
  unfold Ideal.logistic
  exact congrArg₂ Ideal.div h77 (congrArg (· + Ideal.exp (-(Y i))) h75)

/-- The reference's result in row `r` is the row model's output of row `r` of the embedding array and entry `r` of the
    linear-term column. -/
theorem ref_row (x0 x1 : (⟨S262144, .i32⟩ : BufTy).Contents (Elt Ideal)) (x2 x3 : (⟨S100000x64, .f32⟩ : BufTy).Contents (Elt Ideal))
    (x4 : (⟨S200000, .f32⟩ : BufTy).Contents (Elt Ideal)) (x5 : (⟨S1, .f32⟩ : BufTy).Contents (Elt Ideal))
    (x6 : (⟨S128x128, .f32⟩ : BufTy).Contents (Elt Ideal)) (x7 : (⟨S128x200, .f32⟩ : BufTy).Contents (Elt Ideal))
    (x8 : (⟨S200, .f32⟩ : BufTy).Contents (Elt Ideal)) (x9 : (⟨S200x256, .f32⟩ : BufTy).Contents (Elt Ideal))
    (x10 : (⟨S256, .f32⟩ : BufTy).Contents (Elt Ideal)) (x11 : (⟨S256x200, .f32⟩ : BufTy).Contents (Elt Ideal))
    (x12 : (⟨S200, .f32⟩ : BufTy).Contents (Elt Ideal)) (x13 : (⟨S200x128, .f32⟩ : BufTy).Contents (Elt Ideal))
    (x14 : (⟨S128, .f32⟩ : BufTy).Contents (Elt Ideal)) (x15 : (⟨S128x1, .f32⟩ : BufTy).Contents (Elt Ideal))
    (x16 : (⟨S1, .f32⟩ : BufTy).Contents (Elt Ideal)) (r : Fin 262144) (u : Fin 1) :
    val_main_v78 (F := Ideal) x0 x1 x2 x3 x4 x5 x6 x7 x8 x9 x10 x11 x12 x13 x14 x15 x16 (ix2 r u)
      = rowOut (fun d => val_main_v14 (F := Ideal) x0 x1 x2 x3 (ix2 r d)) (val_main_v34 (F := Ideal) x0 x1 x4 x5 (ix2 r (0 : Fin 1)))
          (fun d q => x6 (ix2 d q)) (fun d q => x6 (ix2 d q) * x6 (ix2 d q))
          (fun d j => x7 (ix2 d j)) (fun j => x8 (ix1 j))
          (fun j k => x9 (ix2 j k)) (fun k => x10 (ix1 k))
          (fun k j => x11 (ix2 k j)) (fun j => x12 (ix1 j))
          (fun j q => x13 (ix2 j q)) (fun q => x14 (ix1 q))
          (fun q v => x15 (ix2 q v)) (fun v => x16 (ix1 v)) := by
  obtain rfl : u = 0 := Subsingleton.elim _ _
  unfold rowOut
  have h72 : val_main_v72 (F := Ideal) x0 x1 x2 x3 x4 x5 x6 x7 x8 x9 x10 x11 x12 x13 x14 x15 x16 (ix2 r (0 : Fin 1))
      = (val_main_v34 (F := Ideal) x0 x1 x4 x5 (ix2 r (0 : Fin 1))
          + val_main_v46 (F := Ideal) x0 x1 x2 x3 x6 (ix2 r (0 : Fin 1)))
        + val_main_v70 (F := Ideal) x0 x1 x2 x3 x7 x8 x9 x10 x11 x12 x13 x14 x15 x16 (ix2 r (0 : Fin 1)) := rfl
  rw [← v46_row x0 x1 x2 x3 x6 r 0, ← deep_row x0 x1 x2 x3 x7 x8 x9 x10 x11 x12 x13 x14 x15 x16 r, ← h72]
  unfold val_main_v78 val_main_v76 val_main_v74 val_main_v73
  exact logistic_read _ _

end Cert.RefRow

end
-- ==== Proof.Bridge.lean ====
/-
  The two programs' results are one function of @main's arguments.

  `out` is the network row by row over the ARGUMENTS: row `r` of the embedding stage and of the linear-term stage (the
  gathers, the join and the sums both programs compute by the same host operations, kept closed), the weights and biases
  read off the argument arrays, the squared interaction matrix as the entrywise square. The reference's last stage read
  at a row is `out` (`ref_row`); the kernel's output array is `rows` of the arrays its region finds (`final14`), and those
  arrays are the arguments, their squares, their recasts and the same two stages — so it is `out` of the arguments too.
-/
import proofs.«179928_j53961969107175_2_alg».proof.Proof.KernelRows
import proofs.«179928_j53961969107175_2_alg».proof.Proof.KernelHost
import proofs.«179928_j53961969107175_2_alg».proof.Proof.RefRow
import proofs.«179928_j53961969107175_2_alg».proof.Proof.RowModel

noncomputable section

open Idealize.ShloMosaic Idealize.ShloMosaic.TcCoe Idealize.SL.Sem

namespace Cert.Bridge

open Cert.RowModel Idealize.ShloMosaic.ValueIdx

/-- The network row by row, over @main's arguments. -/
def out (x0 x1 : (⟨Cert.ReferenceIdeal.S262144, .i32⟩ : BufTy).Contents (Elt Ideal)) (x2 x3 : (⟨Cert.ReferenceIdeal.S100000x64, .f32⟩ : BufTy).Contents (Elt Ideal))
    (x4 : (⟨Cert.ReferenceIdeal.S200000, .f32⟩ : BufTy).Contents (Elt Ideal)) (x5 : (⟨Cert.ReferenceIdeal.S1, .f32⟩ : BufTy).Contents (Elt Ideal))
    (x6 : (⟨Cert.ReferenceIdeal.S128x128, .f32⟩ : BufTy).Contents (Elt Ideal)) (x7 : (⟨Cert.ReferenceIdeal.S128x200, .f32⟩ : BufTy).Contents (Elt Ideal))
    (x8 : (⟨Cert.ReferenceIdeal.S200, .f32⟩ : BufTy).Contents (Elt Ideal)) (x9 : (⟨Cert.ReferenceIdeal.S200x256, .f32⟩ : BufTy).Contents (Elt Ideal))
    (x10 : (⟨Cert.ReferenceIdeal.S256, .f32⟩ : BufTy).Contents (Elt Ideal)) (x11 : (⟨Cert.ReferenceIdeal.S256x200, .f32⟩ : BufTy).Contents (Elt Ideal))
    (x12 : (⟨Cert.ReferenceIdeal.S200, .f32⟩ : BufTy).Contents (Elt Ideal)) (x13 : (⟨Cert.ReferenceIdeal.S200x128, .f32⟩ : BufTy).Contents (Elt Ideal))
    (x14 : (⟨Cert.ReferenceIdeal.S128, .f32⟩ : BufTy).Contents (Elt Ideal)) (x15 : (⟨Cert.ReferenceIdeal.S128x1, .f32⟩ : BufTy).Contents (Elt Ideal))
    (x16 : (⟨Cert.ReferenceIdeal.S1, .f32⟩ : BufTy).Contents (Elt Ideal)) :
    (⟨Cert.ReferenceIdeal.S262144x1, .f32⟩ : BufTy).Contents (Elt Ideal) :=
  fun i => rowOut (fun d => Cert.ReferenceIdeal.Read.val_main_v14 (F := Ideal) x0 x1 x2 x3 (ix2 (i 0) d))
    (Cert.ReferenceIdeal.Read.val_main_v34 (F := Ideal) x0 x1 x4 x5 (ix2 (i 0) (0 : Fin 1)))
    (fun d q => x6 (ix2 d q)) (fun d q => x6 (ix2 d q) * x6 (ix2 d q))
    (fun d j => x7 (ix2 d j)) (fun j => x8 (ix1 j))
    (fun j k => x9 (ix2 j k)) (fun k => x10 (ix1 k))
    (fun k j => x11 (ix2 k j)) (fun j => x12 (ix1 j))
    (fun j q => x13 (ix2 j q)) (fun q => x14 (ix1 q))
    (fun q v => x15 (ix2 q v)) (fun v => x16 (ix1 v))

/-- The reference's last stage is `out` of its arguments. -/
theorem ref_out (x0 x1 : (⟨Cert.ReferenceIdeal.S262144, .i32⟩ : BufTy).Contents (Elt Ideal)) (x2 x3 : (⟨Cert.ReferenceIdeal.S100000x64, .f32⟩ : BufTy).Contents (Elt Ideal))
    (x4 : (⟨Cert.ReferenceIdeal.S200000, .f32⟩ : BufTy).Contents (Elt Ideal)) (x5 : (⟨Cert.ReferenceIdeal.S1, .f32⟩ : BufTy).Contents (Elt Ideal))
    (x6 : (⟨Cert.ReferenceIdeal.S128x128, .f32⟩ : BufTy).Contents (Elt Ideal)) (x7 : (⟨Cert.ReferenceIdeal.S128x200, .f32⟩ : BufTy).Contents (Elt Ideal))
    (x8 : (⟨Cert.ReferenceIdeal.S200, .f32⟩ : BufTy).Contents (Elt Ideal)) (x9 : (⟨Cert.ReferenceIdeal.S200x256, .f32⟩ : BufTy).Contents (Elt Ideal))
    (x10 : (⟨Cert.ReferenceIdeal.S256, .f32⟩ : BufTy).Contents (Elt Ideal)) (x11 : (⟨Cert.ReferenceIdeal.S256x200, .f32⟩ : BufTy).Contents (Elt Ideal))
    (x12 : (⟨Cert.ReferenceIdeal.S200, .f32⟩ : BufTy).Contents (Elt Ideal)) (x13 : (⟨Cert.ReferenceIdeal.S200x128, .f32⟩ : BufTy).Contents (Elt Ideal))
    (x14 : (⟨Cert.ReferenceIdeal.S128, .f32⟩ : BufTy).Contents (Elt Ideal)) (x15 : (⟨Cert.ReferenceIdeal.S128x1, .f32⟩ : BufTy).Contents (Elt Ideal))
    (x16 : (⟨Cert.ReferenceIdeal.S1, .f32⟩ : BufTy).Contents (Elt Ideal)) :
    Cert.ReferenceIdeal.Read.val_main_v78 (F := Ideal) x0 x1 x2 x3 x4 x5 x6 x7 x8 x9 x10 x11 x12 x13 x14 x15 x16 = out x0 x1 x2 x3 x4 x5 x6 x7 x8 x9 x10 x11 x12 x13 x14 x15 x16 := by
  funext i
  obtain ⟨r, u, rfl⟩ : ∃ (r : Fin 262144) (u : Fin 1), i = ix2 r u := ⟨i 0, i 1, eq_ix2 i⟩
  exact Cert.RefRow.ref_row x0 x1 x2 x3 x4 x5 x6 x7 x8 x9 x10 x11 x12 x13 x14 x15 x16 r u

section Kernel

open Cert.KernelIdeal Cert.KernelIdeal.Gen Cert.KernelIdeal.GenP Cert.KernelArray Cert.KernelHost

variable (m : (ℓ : Loc nD τ sig) → Buf (Elt Ideal) ℓ)

/-- The kernel's `rows` of the arrays its region finds is `out` of @main's arguments. -/
theorem kernel_out (c : Dev nD) :
    rows (V m c main_v16) (V m c main_v36) (V m c main_v38) (V m c main_v39) (V m c main_v40) (V m c main_v45) (V m c main_v41) (V m c main_v46) (V m c main_v42) (V m c main_v47) (V m c main_v43) (V m c main_v48) (V m c main_v44) (V m c main_v49)
      = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  funext i
  unfold rows out
  rw [main_v16_eq m c, main_v36_eq m c, main_v38_eq m c, main_v39_eq m c, main_v40_eq m c, main_v41_eq m c, main_v42_eq m c,
    main_v43_eq m c, main_v44_eq m c]
  have b1 : (fun j : Fin 200 => (V m c main_v45 : S1x200.Idx → EReal) (ix2 (0 : Fin 1) j))
      = fun j : Fin 200 => (m ((c : Thread nD τ).loc main_arg8) : S200.Idx → EReal) (ix1 j) := funext fun j => main_v45_apply m c 0 j
  have b2 : (fun j : Fin 256 => (V m c main_v46 : S1x256.Idx → EReal) (ix2 (0 : Fin 1) j))
      = fun j : Fin 256 => (m ((c : Thread nD τ).loc main_arg10) : S256.Idx → EReal) (ix1 j) := funext fun j => main_v46_apply m c 0 j
  have b3 : (fun j : Fin 200 => (V m c main_v47 : S1x200.Idx → EReal) (ix2 (0 : Fin 1) j))
      = fun j : Fin 200 => (m ((c : Thread nD τ).loc main_arg12) : S200.Idx → EReal) (ix1 j) := funext fun j => main_v47_apply m c 0 j
  have b4 : (fun j : Fin 128 => (V m c main_v48 : S1x128.Idx → EReal) (ix2 (0 : Fin 1) j))
      = fun j : Fin 128 => (m ((c : Thread nD τ).loc main_arg14) : S128.Idx → EReal) (ix1 j) := funext fun j => main_v48_apply m c 0 j
  have b5 : (fun j : Fin 1 => (V m c main_v49 : S1x1.Idx → EReal) (ix2 (0 : Fin 1) j))
      = fun j : Fin 1 => (m ((c : Thread nD τ).loc main_arg16) : S1.Idx → EReal) (ix1 j) := funext fun j => main_v49_apply m c 0 j
  rw [b1, b2, b3, b4, b5]
  rfl

end Kernel

end Cert.Bridge

end
-- ==== Proof.lean ====
/-
  The certificate of the factorization-machine kernel against its reference, at the exact extended reals.

  Both programs gather two embedding tables at the same integer indices, join them, gather two linear weights and add the
  linear bias — by the same host operations of the same arguments — and then compute, for every one of the 262144 rows,
  the logistic function of  linear term + interaction term + deep term  (Proof/RowModel.lean). The reference does it
  with whole-array host operations (Proof/RefRow.lean reads its last stage at a row); the kernel does it 4096 rows at a
  time on a grid of 64 points, with the weights cast to a narrower float format, which at the exact values is no change
  (Proof/KernelRow.lean reads the body at a row of a block, Proof/KernelBlocks.lean the blocks as rows of the arrays,
  Proof/KernelArray.lean the 64 written blocks as the output array, Proof/KernelHost.lean the staged arrays as functions
  of the arguments, Proof/Bridge.lean the two results as one function `out` of the arguments). No law beyond the
  definitions joins the two sides: a matrix product from the zero accumulator and the host's contraction are the same
  finite sum, a lane sum and the host's sum from zero are the same finite sum, and the logistic function is the
  reference's quotient  1 / (1 + exp (−x))  by definition. The precondition is never opened.

  The three frames are the generated ones (the reference's is its generated run with the result dropped); the
  idealization rewrote nothing, so `preserves` is trivial.
-/
import proofs.«179928_j53961969107175_2_alg».proof.Defs
import proofs.«179928_j53961969107175_2_alg».proof.Proof.Gen.Kernel
import proofs.«179928_j53961969107175_2_alg».proof.Proof.PatchedKernelFrame
import proofs.«179928_j53961969107175_2_alg».proof.Proof.Gen.KernelIdeal
import proofs.«179928_j53961969107175_2_alg».proof.Proof.PatchedKernelIdealFrame
import proofs.«179928_j53961969107175_2_alg».proof.Proof.PatchedKernelIdealValue
import proofs.«179928_j53961969107175_2_alg».proof.Proof.Gen.ReferenceIdeal
import proofs.«179928_j53961969107175_2_alg».proof.Proof.Gen.Pre_finite_inputs
import proofs.«179928_j53961969107175_2_alg».proof.Proof.Gen.ReferenceIdeal.Run
import proofs.«179928_j53961969107175_2_alg».proof.Proof.Gen.ReferenceIdeal.Read
import proofs.«179928_j53961969107175_2_alg».proof.Proof.KernelArray
import proofs.«179928_j53961969107175_2_alg».proof.Proof.Bridge
import Idealize.ShloMosaic.Adequacy
import Idealize.ShloMosaic.Init

noncomputable section

namespace Cert.Proof

open Idealize.ShloMosaic Idealize.SL.Sem

/-- The word-level kernel runs and leaves its arguments as they were: the generated frame. -/
theorem frame_kernel : Cert.frame_Kernel := fun m ρ _ => Cert.Kernel.GenP.frame m ρ

/-- So does the idealized kernel. -/
theorem frame_kernelIdeal : Cert.frame_KernelIdeal := fun m ρ _ => Cert.KernelIdeal.GenP.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

set_option maxHeartbeats 2000000 in
/-- From memories agreeing on the arguments both programs end with the array `out` of the arguments: the kernel's 64
    written blocks are the rows of `out`, the reference's last stage read at a row is the same row. -/
theorem algebraic : Cert.algebraic_KernelIdeal_ReferenceIdeal := by
  intro m ρ m' ρ' _ hagree
  refine ⟨fun c => Cert.Bridge.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16)), ?_, ?_⟩
  · exact (θ_run Cert.KernelIdeal.defs _ _).mono
      (fun r h c => ⟨(h c).1.trans ((Cert.KernelArray.final14 m c).trans (Cert.Bridge.kernel_out m c)), (h c).2⟩)
      (Cert.KernelIdeal.ValueP.run_blocks (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v78_eq, Cert.Bridge.ref_out]
    obtain ⟨h0, h1, h2, h3, h4, h5, h6, h7, h8, h9, h10, h11, h12, h13, h14, h15, h16⟩ := hagree c
    rw [h0, h1, h2, h3, h4, h5, h6, h7, h8, h9, h10, h11, h12, h13, h14, h15, h16]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
